-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x32 : Shape := ⟨3, ![8192, 64, 32]⟩
abbrev S_ : Shape := ⟨0, ![]⟩

class Facts : Prop where
  bcast_S_S8192x64x32 : S_.BroadcastsInDim S8192x64x32 (![] : Fin 0 → Fin S8192x64x32.rank)
  reducesTo_S8192x64x32_S_d0_1_2 : S8192x64x32.ReducesTo [0, 1, 2] S_
  h_S_ : 0 < S_.numel

variable [Facts]

def fn {F : FTy → Type} [FloatOps F] (main_arg0 : FVec F S8192x64x32 .f32) : IVec S_ 1 :=
  let main_v0 : FVec F S8192x64x32 .f32 := Host.absf main_arg0
  let main_cst : FVec F S_ .f32 := constant S_ .f32 0x7F800000#32
  let main_v1 : FVec F S8192x64x32 .f32 := broadcastInDim S8192x64x32 ![] bcast_S_S8192x64x32 main_cst
  let main_v2 : IVec S8192x64x32 1 := cmpf .olt main_v0 main_v1
  let main_c : IVec S_ 1 := constantI S_ 1 1#1
  let main_v3 : IVec S_ 1 := (fun x v => Host.reduce IntOp.andi x v reducesTo_S8192x64x32_S_d0_1_2 h_S_) main_v2 main_c
  main_v3
-- ==== Kernel.lean ====
abbrev S8192x64x32 : Shape := ⟨3, ![8192, 64, 32]⟩
abbrev S8192x2048 : Shape := ⟨2, ![8192, 2048]⟩
abbrev S8192x2016 : Shape := ⟨2, ![8192, 2016]⟩
abbrev S512x2048 : Shape := ⟨2, ![512, 2048]⟩
abbrev S512x2016 : Shape := ⟨2, ![512, 2016]⟩
abbrev S256x2048 : Shape := ⟨2, ![256, 2048]⟩
abbrev S256x64x32 : Shape := ⟨3, ![256, 64, 32]⟩
abbrev S256x64x64 : Shape := ⟨3, ![256, 64, 64]⟩
abbrev S256x1x63 : Shape := ⟨3, ![256, 1, 63]⟩
abbrev S256x63 : Shape := ⟨2, ![256, 63]⟩
abbrev S256x1x62 : Shape := ⟨3, ![256, 1, 62]⟩
abbrev S256x62 : Shape := ⟨2, ![256, 62]⟩
abbrev S256x1x61 : Shape := ⟨3, ![256, 1, 61]⟩
abbrev S256x61 : Shape := ⟨2, ![256, 61]⟩
abbrev S256x1x60 : Shape := ⟨3, ![256, 1, 60]⟩
abbrev S256x60 : Shape := ⟨2, ![256, 60]⟩
abbrev S256x1x59 : Shape := ⟨3, ![256, 1, 59]⟩
abbrev S256x59 : Shape := ⟨2, ![256, 59]⟩
abbrev S256x1x58 : Shape := ⟨3, ![256, 1, 58]⟩
abbrev S256x58 : Shape := ⟨2, ![256, 58]⟩
abbrev S256x1x57 : Shape := ⟨3, ![256, 1, 57]⟩
abbrev S256x57 : Shape := ⟨2, ![256, 57]⟩
abbrev S256x1x56 : Shape := ⟨3, ![256, 1, 56]⟩
abbrev S256x56 : Shape := ⟨2, ![256, 56]⟩
abbrev S256x1x55 : Shape := ⟨3, ![256, 1, 55]⟩
abbrev S256x55 : Shape := ⟨2, ![256, 55]⟩
abbrev S256x1x54 : Shape := ⟨3, ![256, 1, 54]⟩
abbrev S256x54 : Shape := ⟨2, ![256, 54]⟩
abbrev S256x1x53 : Shape := ⟨3, ![256, 1, 53]⟩
abbrev S256x53 : Shape := ⟨2, ![256, 53]⟩
abbrev S256x1x52 : Shape := ⟨3, ![256, 1, 52]⟩
abbrev S256x52 : Shape := ⟨2, ![256, 52]⟩
abbrev S256x1x51 : Shape := ⟨3, ![256, 1, 51]⟩
abbrev S256x51 : Shape := ⟨2, ![256, 51]⟩
abbrev S256x1x50 : Shape := ⟨3, ![256, 1, 50]⟩
abbrev S256x50 : Shape := ⟨2, ![256, 50]⟩
abbrev S256x1x49 : Shape := ⟨3, ![256, 1, 49]⟩
abbrev S256x49 : Shape := ⟨2, ![256, 49]⟩
abbrev S256x1x48 : Shape := ⟨3, ![256, 1, 48]⟩
abbrev S256x48 : Shape := ⟨2, ![256, 48]⟩
abbrev S256x1x47 : Shape := ⟨3, ![256, 1, 47]⟩
abbrev S256x47 : Shape := ⟨2, ![256, 47]⟩
abbrev S256x1x46 : Shape := ⟨3, ![256, 1, 46]⟩
abbrev S256x46 : Shape := ⟨2, ![256, 46]⟩
abbrev S256x1x45 : Shape := ⟨3, ![256, 1, 45]⟩
abbrev S256x45 : Shape := ⟨2, ![256, 45]⟩
abbrev S256x1x44 : Shape := ⟨3, ![256, 1, 44]⟩
abbrev S256x44 : Shape := ⟨2, ![256, 44]⟩
abbrev S256x1x43 : Shape := ⟨3, ![256, 1, 43]⟩
abbrev S256x43 : Shape := ⟨2, ![256, 43]⟩
abbrev S256x1x42 : Shape := ⟨3, ![256, 1, 42]⟩
abbrev S256x42 : Shape := ⟨2, ![256, 42]⟩
abbrev S256x1x41 : Shape := ⟨3, ![256, 1, 41]⟩
abbrev S256x41 : Shape := ⟨2, ![256, 41]⟩
abbrev S256x1x40 : Shape := ⟨3, ![256, 1, 40]⟩
abbrev S256x40 : Shape := ⟨2, ![256, 40]⟩
abbrev S256x1x39 : Shape := ⟨3, ![256, 1, 39]⟩
abbrev S256x39 : Shape := ⟨2, ![256, 39]⟩
abbrev S256x1x38 : Shape := ⟨3, ![256, 1, 38]⟩
abbrev S256x38 : Shape := ⟨2, ![256, 38]⟩
abbrev S256x1x37 : Shape := ⟨3, ![256, 1, 37]⟩
abbrev S256x37 : Shape := ⟨2, ![256, 37]⟩
abbrev S256x1x36 : Shape := ⟨3, ![256, 1, 36]⟩
abbrev S256x36 : Shape := ⟨2, ![256, 36]⟩
abbrev S256x1x35 : Shape := ⟨3, ![256, 1, 35]⟩
abbrev S256x35 : Shape := ⟨2, ![256, 35]⟩
abbrev S256x1x34 : Shape := ⟨3, ![256, 1, 34]⟩
abbrev S256x34 : Shape := ⟨2, ![256, 34]⟩
abbrev S256x1x33 : Shape := ⟨3, ![256, 1, 33]⟩
abbrev S256x33 : Shape := ⟨2, ![256, 33]⟩
abbrev S256x1x32 : Shape := ⟨3, ![256, 1, 32]⟩
abbrev S256x32 : Shape := ⟨2, ![256, 32]⟩
abbrev S256x1x31 : Shape := ⟨3, ![256, 1, 31]⟩
abbrev S256x31 : Shape := ⟨2, ![256, 31]⟩
abbrev S256x1x30 : Shape := ⟨3, ![256, 1, 30]⟩
abbrev S256x30 : Shape := ⟨2, ![256, 30]⟩
abbrev S256x1x29 : Shape := ⟨3, ![256, 1, 29]⟩
abbrev S256x29 : Shape := ⟨2, ![256, 29]⟩
abbrev S256x1x28 : Shape := ⟨3, ![256, 1, 28]⟩
abbrev S256x28 : Shape := ⟨2, ![256, 28]⟩
abbrev S256x1x27 : Shape := ⟨3, ![256, 1, 27]⟩
abbrev S256x27 : Shape := ⟨2, ![256, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x1 : Shape := ⟨2, ![256, 1]⟩
abbrev S256x2016 : Shape := ⟨2, ![256, 2016]⟩

abbrev nBuf : Space → Nat
  | .hbm => 3
  | .vmem => 4
  | .smem => 0
  | _ => 0

abbrev bufTy : (tb : Table) → Fin (tcTables nBuf tb) → BufTy
  | .hbm, ⟨0, _⟩ => ⟨S8192x64x32, .f32⟩
  | .hbm, ⟨1, _⟩ => ⟨S8192x2048, .f32⟩
  | .hbm, ⟨2, _⟩ => ⟨S8192x2016, .f32⟩
  | .local _ .vmem, ⟨0, _⟩ => ⟨S512x2048, .f32⟩
  | .local _ .vmem, ⟨1, _⟩ => ⟨S512x2048, .f32⟩
  | .local _ .vmem, ⟨2, _⟩ => ⟨S512x2016, .f32⟩
  | .local _ .vmem, ⟨3, _⟩ => ⟨S512x2016, .f32⟩
  | _, _ => ⟨S8192x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  v1
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let v136 : Index := Scalar.indexCast v2
  let c0_1 : Index := 0#32
  ![v136.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x64x32_S8192x2048 : S8192x64x32.ShapeCasts S8192x2048
  h_S256x2048 : 0 < S256x2048.numel
  shapeCasts_S256x2048_S256x2048 : S256x2048.ShapeCasts S256x2048
  bitsLt_bf16_f32 : FTy.bits .bf16 < FTy.bits .f32
  shapeCasts_S256x2048_S256x64x32 : S256x2048.ShapeCasts S256x64x32
  slices_S256x64x64_o0_0_1_S256x1x63 : S256x64x64.Slices ![0, 0, 1] S256x1x63
  shapeCasts_S256x1x63_S256x63 : S256x1x63.ShapeCasts S256x63
  slices_S256x64x64_o0_1_2_S256x1x62 : S256x64x64.Slices ![0, 1, 2] S256x1x62
  shapeCasts_S256x1x62_S256x62 : S256x1x62.ShapeCasts S256x62
  slices_S256x64x64_o0_2_3_S256x1x61 : S256x64x64.Slices ![0, 2, 3] S256x1x61
  shapeCasts_S256x1x61_S256x61 : S256x1x61.ShapeCasts S256x61
  slices_S256x64x64_o0_3_4_S256x1x60 : S256x64x64.Slices ![0, 3, 4] S256x1x60
  shapeCasts_S256x1x60_S256x60 : S256x1x60.ShapeCasts S256x60
  slices_S256x64x64_o0_4_5_S256x1x59 : S256x64x64.Slices ![0, 4, 5] S256x1x59
  shapeCasts_S256x1x59_S256x59 : S256x1x59.ShapeCasts S256x59
  slices_S256x64x64_o0_5_6_S256x1x58 : S256x64x64.Slices ![0, 5, 6] S256x1x58
  shapeCasts_S256x1x58_S256x58 : S256x1x58.ShapeCasts S256x58
  slices_S256x64x64_o0_6_7_S256x1x57 : S256x64x64.Slices ![0, 6, 7] S256x1x57
  shapeCasts_S256x1x57_S256x57 : S256x1x57.ShapeCasts S256x57
  slices_S256x64x64_o0_7_8_S256x1x56 : S256x64x64.Slices ![0, 7, 8] S256x1x56
  shapeCasts_S256x1x56_S256x56 : S256x1x56.ShapeCasts S256x56
  slices_S256x64x64_o0_8_9_S256x1x55 : S256x64x64.Slices ![0, 8, 9] S256x1x55
  shapeCasts_S256x1x55_S256x55 : S256x1x55.ShapeCasts S256x55
  slices_S256x64x64_o0_9_10_S256x1x54 : S256x64x64.Slices ![0, 9, 10] S256x1x54
  shapeCasts_S256x1x54_S256x54 : S256x1x54.ShapeCasts S256x54
  slices_S256x64x64_o0_10_11_S256x1x53 : S256x64x64.Slices ![0, 10, 11] S256x1x53
  shapeCasts_S256x1x53_S256x53 : S256x1x53.ShapeCasts S256x53
  slices_S256x64x64_o0_11_12_S256x1x52 : S256x64x64.Slices ![0, 11, 12] S256x1x52
  shapeCasts_S256x1x52_S256x52 : S256x1x52.ShapeCasts S256x52
  slices_S256x64x64_o0_12_13_S256x1x51 : S256x64x64.Slices ![0, 12, 13] S256x1x51
  shapeCasts_S256x1x51_S256x51 : S256x1x51.ShapeCasts S256x51
  slices_S256x64x64_o0_13_14_S256x1x50 : S256x64x64.Slices ![0, 13, 14] S256x1x50
  shapeCasts_S256x1x50_S256x50 : S256x1x50.ShapeCasts S256x50
  slices_S256x64x64_o0_14_15_S256x1x49 : S256x64x64.Slices ![0, 14, 15] S256x1x49
  shapeCasts_S256x1x49_S256x49 : S256x1x49.ShapeCasts S256x49
  slices_S256x64x64_o0_15_16_S256x1x48 : S256x64x64.Slices ![0, 15, 16] S256x1x48
  shapeCasts_S256x1x48_S256x48 : S256x1x48.ShapeCasts S256x48
  slices_S256x64x64_o0_16_17_S256x1x47 : S256x64x64.Slices ![0, 16, 17] S256x1x47
  shapeCasts_S256x1x47_S256x47 : S256x1x47.ShapeCasts S256x47
  slices_S256x64x64_o0_17_18_S256x1x46 : S256x64x64.Slices ![0, 17, 18] S256x1x46
  shapeCasts_S256x1x46_S256x46 : S256x1x46.ShapeCasts S256x46
  slices_S256x64x64_o0_18_19_S256x1x45 : S256x64x64.Slices ![0, 18, 19] S256x1x45
  shapeCasts_S256x1x45_S256x45 : S256x1x45.ShapeCasts S256x45
  slices_S256x64x64_o0_19_20_S256x1x44 : S256x64x64.Slices ![0, 19, 20] S256x1x44
  shapeCasts_S256x1x44_S256x44 : S256x1x44.ShapeCasts S256x44
  slices_S256x64x64_o0_20_21_S256x1x43 : S256x64x64.Slices ![0, 20, 21] S256x1x43
  shapeCasts_S256x1x43_S256x43 : S256x1x43.ShapeCasts S256x43
  slices_S256x64x64_o0_21_22_S256x1x42 : S256x64x64.Slices ![0, 21, 22] S256x1x42
  shapeCasts_S256x1x42_S256x42 : S256x1x42.ShapeCasts S256x42
  slices_S256x64x64_o0_22_23_S256x1x41 : S256x64x64.Slices ![0, 22, 23] S256x1x41
  shapeCasts_S256x1x41_S256x41 : S256x1x41.ShapeCasts S256x41
  slices_S256x64x64_o0_23_24_S256x1x40 : S256x64x64.Slices ![0, 23, 24] S256x1x40
  shapeCasts_S256x1x40_S256x40 : S256x1x40.ShapeCasts S256x40
  slices_S256x64x64_o0_24_25_S256x1x39 : S256x64x64.Slices ![0, 24, 25] S256x1x39
  shapeCasts_S256x1x39_S256x39 : S256x1x39.ShapeCasts S256x39
  slices_S256x64x64_o0_25_26_S256x1x38 : S256x64x64.Slices ![0, 25, 26] S256x1x38
  shapeCasts_S256x1x38_S256x38 : S256x1x38.ShapeCasts S256x38
  slices_S256x64x64_o0_26_27_S256x1x37 : S256x64x64.Slices ![0, 26, 27] S256x1x37
  shapeCasts_S256x1x37_S256x37 : S256x1x37.ShapeCasts S256x37
  slices_S256x64x64_o0_27_28_S256x1x36 : S256x64x64.Slices ![0, 27, 28] S256x1x36
  shapeCasts_S256x1x36_S256x36 : S256x1x36.ShapeCasts S256x36
  slices_S256x64x64_o0_28_29_S256x1x35 : S256x64x64.Slices ![0, 28, 29] S256x1x35
  shapeCasts_S256x1x35_S256x35 : S256x1x35.ShapeCasts S256x35
  slices_S256x64x64_o0_29_30_S256x1x34 : S256x64x64.Slices ![0, 29, 30] S256x1x34
  shapeCasts_S256x1x34_S256x34 : S256x1x34.ShapeCasts S256x34
  slices_S256x64x64_o0_30_31_S256x1x33 : S256x64x64.Slices ![0, 30, 31] S256x1x33
  shapeCasts_S256x1x33_S256x33 : S256x1x33.ShapeCasts S256x33
  slices_S256x64x64_o0_31_32_S256x1x32 : S256x64x64.Slices ![0, 31, 32] S256x1x32
  shapeCasts_S256x1x32_S256x32 : S256x1x32.ShapeCasts S256x32
  slices_S256x64x64_o0_32_33_S256x1x31 : S256x64x64.Slices ![0, 32, 33] S256x1x31
  shapeCasts_S256x1x31_S256x31 : S256x1x31.ShapeCasts S256x31
  slices_S256x64x64_o0_33_34_S256x1x30 : S256x64x64.Slices ![0, 33, 34] S256x1x30
  shapeCasts_S256x1x30_S256x30 : S256x1x30.ShapeCasts S256x30
  slices_S256x64x64_o0_34_35_S256x1x29 : S256x64x64.Slices ![0, 34, 35] S256x1x29
  shapeCasts_S256x1x29_S256x29 : S256x1x29.ShapeCasts S256x29
  slices_S256x64x64_o0_35_36_S256x1x28 : S256x64x64.Slices ![0, 35, 36] S256x1x28
  shapeCasts_S256x1x28_S256x28 : S256x1x28.ShapeCasts S256x28
  slices_S256x64x64_o0_36_37_S256x1x27 : S256x64x64.Slices ![0, 36, 37] S256x1x27
  shapeCasts_S256x1x27_S256x27 : S256x1x27.ShapeCasts S256x27
  slices_S256x64x64_o0_37_38_S256x1x26 : S256x64x64.Slices ![0, 37, 38] S256x1x26
  shapeCasts_S256x1x26_S256x26 : S256x1x26.ShapeCasts S256x26
  slices_S256x64x64_o0_38_39_S256x1x25 : S256x64x64.Slices ![0, 38, 39] S256x1x25
  shapeCasts_S256x1x25_S256x25 : S256x1x25.ShapeCasts S256x25
  slices_S256x64x64_o0_39_40_S256x1x24 : S256x64x64.Slices ![0, 39, 40] S256x1x24
  shapeCasts_S256x1x24_S256x24 : S256x1x24.ShapeCasts S256x24
  slices_S256x64x64_o0_40_41_S256x1x23 : S256x64x64.Slices ![0, 40, 41] S256x1x23
  shapeCasts_S256x1x23_S256x23 : S256x1x23.ShapeCasts S256x23
  slices_S256x64x64_o0_41_42_S256x1x22 : S256x64x64.Slices ![0, 41, 42] S256x1x22
  shapeCasts_S256x1x22_S256x22 : S256x1x22.ShapeCasts S256x22
  slices_S256x64x64_o0_42_43_S256x1x21 : S256x64x64.Slices ![0, 42, 43] S256x1x21
  shapeCasts_S256x1x21_S256x21 : S256x1x21.ShapeCasts S256x21
  slices_S256x64x64_o0_43_44_S256x1x20 : S256x64x64.Slices ![0, 43, 44] S256x1x20
  shapeCasts_S256x1x20_S256x20 : S256x1x20.ShapeCasts S256x20
  slices_S256x64x64_o0_44_45_S256x1x19 : S256x64x64.Slices ![0, 44, 45] S256x1x19
  shapeCasts_S256x1x19_S256x19 : S256x1x19.ShapeCasts S256x19
  slices_S256x64x64_o0_45_46_S256x1x18 : S256x64x64.Slices ![0, 45, 46] S256x1x18
  shapeCasts_S256x1x18_S256x18 : S256x1x18.ShapeCasts S256x18
  slices_S256x64x64_o0_46_47_S256x1x17 : S256x64x64.Slices ![0, 46, 47] S256x1x17
  shapeCasts_S256x1x17_S256x17 : S256x1x17.ShapeCasts S256x17
  slices_S256x64x64_o0_47_48_S256x1x16 : S256x64x64.Slices ![0, 47, 48] S256x1x16
  shapeCasts_S256x1x16_S256x16 : S256x1x16.ShapeCasts S256x16
  slices_S256x64x64_o0_48_49_S256x1x15 : S256x64x64.Slices ![0, 48, 49] S256x1x15
  shapeCasts_S256x1x15_S256x15 : S256x1x15.ShapeCasts S256x15
  slices_S256x64x64_o0_49_50_S256x1x14 : S256x64x64.Slices ![0, 49, 50] S256x1x14
  shapeCasts_S256x1x14_S256x14 : S256x1x14.ShapeCasts S256x14
  slices_S256x64x64_o0_50_51_S256x1x13 : S256x64x64.Slices ![0, 50, 51] S256x1x13
  shapeCasts_S256x1x13_S256x13 : S256x1x13.ShapeCasts S256x13
  slices_S256x64x64_o0_51_52_S256x1x12 : S256x64x64.Slices ![0, 51, 52] S256x1x12
  shapeCasts_S256x1x12_S256x12 : S256x1x12.ShapeCasts S256x12
  slices_S256x64x64_o0_52_53_S256x1x11 : S256x64x64.Slices ![0, 52, 53] S256x1x11
  shapeCasts_S256x1x11_S256x11 : S256x1x11.ShapeCasts S256x11
  slices_S256x64x64_o0_53_54_S256x1x10 : S256x64x64.Slices ![0, 53, 54] S256x1x10
  shapeCasts_S256x1x10_S256x10 : S256x1x10.ShapeCasts S256x10
  slices_S256x64x64_o0_54_55_S256x1x9 : S256x64x64.Slices ![0, 54, 55] S256x1x9
  shapeCasts_S256x1x9_S256x9 : S256x1x9.ShapeCasts S256x9
  slices_S256x64x64_o0_55_56_S256x1x8 : S256x64x64.Slices ![0, 55, 56] S256x1x8
  shapeCasts_S256x1x8_S256x8 : S256x1x8.ShapeCasts S256x8
  slices_S256x64x64_o0_56_57_S256x1x7 : S256x64x64.Slices ![0, 56, 57] S256x1x7
  shapeCasts_S256x1x7_S256x7 : S256x1x7.ShapeCasts S256x7
  slices_S256x64x64_o0_57_58_S256x1x6 : S256x64x64.Slices ![0, 57, 58] S256x1x6
  shapeCasts_S256x1x6_S256x6 : S256x1x6.ShapeCasts S256x6
  slices_S256x64x64_o0_58_59_S256x1x5 : S256x64x64.Slices ![0, 58, 59] S256x1x5
  shapeCasts_S256x1x5_S256x5 : S256x1x5.ShapeCasts S256x5
  slices_S256x64x64_o0_59_60_S256x1x4 : S256x64x64.Slices ![0, 59, 60] S256x1x4
  shapeCasts_S256x1x4_S256x4 : S256x1x4.ShapeCasts S256x4
  slices_S256x64x64_o0_60_61_S256x1x3 : S256x64x64.Slices ![0, 60, 61] S256x1x3
  shapeCasts_S256x1x3_S256x3 : S256x1x3.ShapeCasts S256x3
  slices_S256x64x64_o0_61_62_S256x1x2 : S256x64x64.Slices ![0, 61, 62] S256x1x2
  shapeCasts_S256x1x2_S256x2 : S256x1x2.ShapeCasts S256x2
  slices_S256x64x64_o0_62_63_S256x1x1 : S256x64x64.Slices ![0, 62, 63] S256x1x1
  shapeCasts_S256x1x1_S256x1 : S256x1x1.ShapeCasts S256x1
  concatenates_S256x63_S256x62_S256x61_S256x60_S256x59_S256x58_S256x57_S256x56_S256x55_S256x54_S256x53_S256x52_S256x51_S256x50_S256x49_S256x48_S256x47_S256x46_S256x45_S256x44_S256x43_S256x42_S256x41_S256x40_S256x39_S256x38_S256x37_S256x36_S256x35_S256x34_S256x33_S256x32_S256x31_S256x30_S256x29_S256x28_S256x27_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x2016_d1 : Shape.Concatenates (S256x63 :: S256x62 :: S256x61 :: S256x60 :: S256x59 :: S256x58 :: S256x57 :: S256x56 :: S256x55 :: S256x54 :: S256x53 :: S256x52 :: S256x51 :: S256x50 :: S256x49 :: S256x48 :: S256x47 :: S256x46 :: S256x45 :: S256x44 :: S256x43 :: S256x42 :: S256x41 :: S256x40 :: S256x39 :: S256x38 :: S256x37 :: S256x36 :: S256x35 :: S256x34 :: S256x33 :: S256x32 :: S256x31 :: S256x30 :: S256x29 :: S256x28 :: S256x27 :: S256x26 :: S256x25 :: S256x24 :: S256x23 :: S256x22 :: S256x21 :: S256x20 :: S256x19 :: S256x18 :: S256x17 :: S256x16 :: S256x15 :: S256x14 :: S256x13 :: S256x12 :: S256x11 :: S256x10 :: S256x9 :: S256x8 :: S256x7 :: S256x6 :: S256x5 :: S256x4 :: S256x3 :: S256x2 :: S256x1 :: []) S256x2016 1
  h_S256x2016 : 0 < S256x2016.numel
  dot_S256x64x32_S256x64x32_S256x64x64_2_2_1_1_0_0_wf : DotDims.WF S256x64x32 S256x64x32 S256x64x64 [2] [2] [1] [1] [0] [0]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2048.size a ≤ S512x2048.size a
  k0_off2_inb : ∀ k0_t1 : Fin k0_t1_loop.trips, ∀ a, (k0_off2 k0_t1) a + S256x2016.size a ≤ S512x2016.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2016.size a ≤ S8192x2016.size a
  hwx0_1 : ∀ i : grid0.Coords, EltTy.bits .f32 = 32 ∨ (Rect.block (s := S8192x2016) S512x2016.size (cc0_transform_1 i) (hinb0_1 i)).WholeWords (EltTy.packing .f32)

variable [Facts₀]

def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x32 : Shape := ⟨3, ![8192, 64, 32]⟩
abbrev S8192x64x64 : Shape := ⟨3, ![8192, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 137
  | .vmem => 0
  | .smem => 0
  | _ => 0

abbrev hbmTy0_0 (i : Nat) : BufTy := match i % 128 with
  | 0 => ⟨S8192x64x32, .f32⟩
  | 1 => ⟨S8192x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S8192x64x32, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S8192x2016, .f32⟩
  | _ => ⟨S8192x64x32, .f32⟩

abbrev hbmTy (i : Nat) : BufTy := match i / 128 with
  | 0 => hbmTy0_0 i
  | 1 => hbmTy0_1 i
  | _ => ⟨S8192x64x32, .f32⟩

abbrev bufTy : (tb : Table) → Fin (tcTables nBuf tb) → BufTy
  | .hbm, ⟨i, _⟩ => hbmTy i
  | _, _ => ⟨S8192x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x32_S8192x64x32_S8192x64x64_2_2_1_1_0_0_wf : DotDims.WF S8192x64x32 S8192x64x32 S8192x64x64 [2] [2] [1] [1] [0] [0]
  scatter_S2016_S4096x1_S4096_n_0_0_1_wf : ScatterDims.WF S2016 S4096x1 S4096 [] [0] [0] 1
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x32_S8192x64x32_S8192x64x64_2_2_1_1_0_0 : DotDims S8192x64x32 S8192x64x32 S8192x64x64 where
  lhsContracting := [2]
  rhsContracting := [2]
  lhsNonContracting := [1]
  rhsNonContracting := [1]
  lhsBatch := [0]
  rhsBatch := [0]
  wf := dot_S8192x64x32_S8192x64x32_S8192x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.Tri.lean ====
/-
  The strict upper triangle of a 64 × 64 matrix, packed row by row.

  Position `k < 2016` of the packing is the pair `(rowOf k, colOf k)` with `rowOf k < colOf k < 64`:
  row `i` contributes its `63 - i` entries to the right of the diagonal, so it starts at packed position
  `off i = (63 - 0) + (63 - 1) + ⋯ + (63 - (i - 1))`, and entry `(i, j)` sits at `off i + (j - i - 1)`.
  Both programs enumerate the pairs in this order: one lays the rows' tails end to end, the other lists the
  non-zero positions of the strict upper triangular mask in row-major order.
-/
import Mathlib.Data.Nat.Basic
import Mathlib.Tactic

namespace Cert.Tri

/-- The packed position at which row `i` starts: the number of pairs `(i', j)`, `i' < j < 64`, with `i' < i`. -/
def off : Nat → Nat
  | 0 => 0
  | i + 1 => off i + (63 - i)

/-- Walk the rows from `i` on, `k` counted from the start of row `i`: the row that holds position `k`. -/
def rowFrom : Nat → Nat → Nat → Nat
  | 0, i, _ => i
  | f + 1, i, k => if k < 63 - i then i else rowFrom f (i + 1) (k - (63 - i))

/-- The row of packed position `k`. -/
def rowOf (k : Nat) : Nat := rowFrom 63 0 k

/-- The column of packed position `k`: one past the diagonal plus the position inside the row's tail. -/
def colOf (k : Nat) : Nat := rowOf k + 1 + (k - off (rowOf k))

/-- The packed position of the pair `(i, j)`, `i < j`. -/
def posOf (i j : Nat) : Nat := off i + (j - i - 1)

/-- Position `k` lies in the tail of its row: the row is one of the first 63, it starts at or before `k`, and the
    next row starts after `k`. -/
theorem rowOf_spec : ∀ k < 2016, rowOf k < 63 ∧ off (rowOf k) ≤ k ∧ k < off (rowOf k + 1) := by
  decide +kernel

/-- The pair at a packed position is strictly upper triangular and inside the matrix. -/
theorem row_lt_col : ∀ k < 2016, rowOf k < colOf k ∧ colOf k < 64 := by
  decide +kernel

/-- Packing after unpacking is the identity on positions. -/
theorem posOf_rowOf_colOf : ∀ k < 2016, posOf (rowOf k) (colOf k) = k := by
  decide +kernel

/-- The packing has 2016 positions. -/
theorem off_63 : off 63 = 2016 := by decide

end Cert.Tri
-- ==== Proof.LibBatchedDot.lean ====
/-
  A batched contraction over the last axis, read at an index.

  For operands `l : [B, M, K]` and `r : [B, N, K]` and dimension numbers that batch axis 0 with axis 0, keep axis 1 of
  each operand and contract axis 2 with axis 2 (`einsum('bmk,bnk->bmn')`), the product at the extended reals — the
  vector unit's matrix product into a zero accumulator, or the host's `dot_general` — read at `(b, i, j)` is the plain
  sum over `e < K` of `l (b, i, e) * r (b, j, e)`. The dimension numbers are taken by their six lists, so the lemmas
  apply to any record with these lists, whatever its well-formedness proof.
-/
import Idealize.ShloMosaic.PureOps.Ideal.Laws
import Idealize.ShloMosaic.Lib.ValueIdx

noncomputable section

namespace Idealize.ShloMosaic.BatchedDot

open Idealize.ShloMosaic Idealize.ShloMosaic.ValueIdx

variable {B M N K : Nat}

section Indices

variable (d : DotDims (⟨3, ![B, M, K]⟩ : Shape) (⟨3, ![B, N, K]⟩ : Shape) (⟨3, ![B, M, N]⟩ : Shape))
  (hlc : d.lhsContracting = [2]) (hrc : d.rhsContracting = [2])
  (hln : d.lhsNonContracting = [1]) (hrn : d.rhsNonContracting = [1])
  (hlb : d.lhsBatch = [0]) (hrb : d.rhsBatch = [0])

/-- A result index read at two spellings of one axis number. -/
private theorem out_val_congr (j : (⟨3, ![B, M, N]⟩ : Shape).Idx) (p q : Nat) (hp : p < 3) (hq : q < 3) (h : p = q) :
    (j ⟨p, hp⟩).val = (j ⟨q, hq⟩).val := by subst h; rfl

include hlb in
/-- The left operand's batch coordinate is the result's. -/
theorem lhsIdx_val0 (j : (⟨3, ![B, M, N]⟩ : Shape).Idx) (q : d.contr.Idx) : (d.lhsIdx j q 0).val = (j 0).val := by
  have hmem : (0 : Fin 3) ∈ d.lhsBatch := by rw [hlb]; exact List.mem_singleton.mpr rfl
  unfold DotDims.lhsIdx
  rw [dif_pos hmem]
  simp only [Fin.val_cast]
  exact out_val_congr j _ 0 _ (by decide) (by simp [hlb])

include hlb hln in
/-- The left operand's row coordinate is the result's axis 1. -/
theorem lhsIdx_val1 (j : (⟨3, ![B, M, N]⟩ : Shape).Idx) (q : d.contr.Idx) : (d.lhsIdx j q 1).val = (j 1).val := by
  have hnb : (1 : Fin 3) ∉ d.lhsBatch := by
    rw [hlb, List.mem_singleton]; exact fun h => absurd (congrArg Fin.val h) Nat.one_ne_zero
  have hmem : (1 : Fin 3) ∈ d.lhsNonContracting := by rw [hln]; exact List.mem_singleton.mpr rfl
  unfold DotDims.lhsIdx
  rw [dif_neg hnb, dif_pos hmem]
  simp only [Fin.val_cast]
  exact out_val_congr j _ 1 _ (by decide) (by simp [hlb, hln])

include hrb in
/-- The right operand's batch coordinate is the result's. -/
theorem rhsIdx_val0 (j : (⟨3, ![B, M, N]⟩ : Shape).Idx) (q : d.contr.Idx) : (d.rhsIdx j q 0).val = (j 0).val := by
  have hmem : (0 : Fin 3) ∈ d.rhsBatch := by rw [hrb]; exact List.mem_singleton.mpr rfl
  unfold DotDims.rhsIdx
  rw [dif_pos hmem]
  simp only [Fin.val_cast]
  exact out_val_congr j _ 0 _ (by decide) (by simp [hrb])

include hrb hrn hlb hln in
/-- The right operand's row coordinate is the result's axis 2. -/
theorem rhsIdx_val1 (j : (⟨3, ![B, M, N]⟩ : Shape).Idx) (q : d.contr.Idx) : (d.rhsIdx j q 1).val = (j 2).val := by
  have hnb : (1 : Fin 3) ∉ d.rhsBatch := by
    rw [hrb, List.mem_singleton]; exact fun h => absurd (congrArg Fin.val h) Nat.one_ne_zero
  have hmem : (1 : Fin 3) ∈ d.rhsNonContracting := by rw [hrn]; exact List.mem_singleton.mpr rfl
  unfold DotDims.rhsIdx
  rw [dif_neg hnb, dif_pos hmem]
  simp only [Fin.val_cast]
  exact out_val_congr j _ 2 _ (by decide) (by simp [hlb, hln, hrn])

include hlc in
/-- One axis is contracted. -/
theorem contr_rank : d.contr.rank = 1 := by rw [d.rank_contr, hlc]; rfl

include hlc in
/-- Its extent is `K`. -/
theorem contr_size : d.contr.size ⟨0, by rw [contr_rank d hlc]; exact Nat.one_pos⟩ = K := by
  rw [d.size_contr 0 (by rw [hlc]; exact Nat.one_pos)]
  simp [hlc]

include hlc hln hlb in
/-- The left operand's index at result index `(b, i, j)` and contraction position `e` is `(b, i, e)`. -/
theorem lhsIdx_eq (b : Fin B) (i : Fin M) (j : Fin N) (e : Fin K) :
    d.lhsIdx (ix3 b i j) ((contrEquiv1 d K (contr_rank d hlc) (contr_size d hlc)).symm e) = ix3 b i e := by
  funext a
  refine Fin.ext ?_
  match a with
  | ⟨0, _⟩ => exact lhsIdx_val0 d hlb _ _
  | ⟨1, _⟩ => exact lhsIdx_val1 d hln hlb _ _
  | ⟨2, _⟩ =>
    refine (d.lhsIdx_val_of_single hlc _ _).trans ?_
    exact contrEquiv1_symm_val d K (contr_rank d hlc) (contr_size d hlc) e

include hlc hrc hln hrn hlb hrb in
/-- The right operand's index at result index `(b, i, j)` and contraction position `e` is `(b, j, e)`. -/
theorem rhsIdx_eq (b : Fin B) (i : Fin M) (j : Fin N) (e : Fin K) :
    d.rhsIdx (ix3 b i j) ((contrEquiv1 d K (contr_rank d hlc) (contr_size d hlc)).symm e) = ix3 b j e := by
  funext a
  refine Fin.ext ?_
  match a with
  | ⟨0, _⟩ => exact rhsIdx_val0 d hrb _ _
  | ⟨1, _⟩ => exact rhsIdx_val1 d hln hrn hlb hrb _ _
  | ⟨2, _⟩ =>
    refine (d.rhsIdx_val_of_single hrc _ _).trans ?_
    exact contrEquiv1_symm_val d K (contr_rank d hlc) (contr_size d hlc) e

include hlc hrc hln hrn hlb hrb in
/-- The contraction sum at `(b, i, j)` is the sum over `e < K` of `l (b, i, e) * r (b, j, e)`. -/
theorem sum_eq (l : (⟨3, ![B, M, K]⟩ : Shape).Idx → EReal) (r : (⟨3, ![B, N, K]⟩ : Shape).Idx → EReal)
    (b : Fin B) (i : Fin M) (j : Fin N) :
    ∑ q : d.contr.Idx, l (d.lhsIdx (ix3 b i j) q) * r (d.rhsIdx (ix3 b i j) q)
      = ∑ e : Fin K, l (ix3 b i e) * r (ix3 b j e) := by
  rw [← Equiv.sum_comp (contrEquiv1 d K (contr_rank d hlc) (contr_size d hlc)).symm]
  refine Finset.sum_congr rfl fun e _ => ?_
  rw [lhsIdx_eq d hlc hln hlb b i j e, rhsIdx_eq d hlc hrc hln hrn hlb hrb b i j e]

end Indices

/-- The vector unit's batched product into a zero accumulator, at the extended reals, read at `(b, i, j)`. -/
theorem matmul_zero_apply {φ₁ φ₂ : FTy}
    (d : DotDims (⟨3, ![B, M, K]⟩ : Shape) (⟨3, ![B, N, K]⟩ : Shape) (⟨3, ![B, M, N]⟩ : Shape))
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision)
    (l : FVec Ideal (⟨3, ![B, M, K]⟩ : Shape) φ₁) (r : FVec Ideal (⟨3, ![B, N, K]⟩ : Shape) φ₂)
    (b : Fin B) (i : Fin M) (j : Fin N) :
    FloatOps.matmul d prec l r (constant (F := Ideal) (⟨3, ![B, M, N]⟩ : Shape) .f32 0x00000000#32) (ix3 b i j)
      = ∑ e : Fin K, l (ix3 b i e) * r (ix3 b j e) :=
  (Ideal.matmul_constant_zero_apply d prec l r (ix3 b i j)).trans (sum_eq d hlc hrc hln hrn hlb hrb l r b i j)

/-- The host's batched `dot_general`, at the extended reals, read at `(b, i, j)`. -/
theorem dotGeneral_apply {φ₁ φ₂ : FTy}
    (d : DotDims (⟨3, ![B, M, K]⟩ : Shape) (⟨3, ![B, N, K]⟩ : Shape) (⟨3, ![B, M, N]⟩ : Shape))
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision) (sched : HostSchedule)
    (l : FVec Ideal (⟨3, ![B, M, K]⟩ : Shape) φ₁) (r : FVec Ideal (⟨3, ![B, N, K]⟩ : Shape) φ₂)
    (b : Fin B) (i : Fin M) (j : Fin N) :
    FloatOps.dotGeneral d prec sched l r (ix3 b i j) = ∑ e : Fin K, l (ix3 b i e) * r (ix3 b j e) :=
  (Ideal.dotGeneral_apply d prec sched l r (ix3 b i j)).trans (sum_eq d hlc hrc hln hrn hlb hrb l r b i j)

end Idealize.ShloMosaic.BatchedDot

end
-- ==== Proof.KernelPay.lean ====
/-
  One trip of the kernel's loop, as a value.

  A trip loads 256 rows of the staged block (each row the 64 × 32 entries of one batch element, flattened), forms for
  each row its 64 × 64 Gram matrix `g (r, i, j) = ∑ e < 32, v (r, 32 i + e) * v (r, 32 j + e)` (the rounding to bf16 before
  the product is the identity at the extended reals), and stores the rows' strict upper triangles packed: the tails
  `g (r, i, i+1 ..)` of rows `i = 0 .. 62` laid end to end.
-/
import proofs.«137568_j11974368821316_2_alg».proof.Proof.Gen.KernelIdeal.Skeleton
import proofs.«137568_j11974368821316_2_alg».proof.Proof.Tri
import proofs.«137568_j11974368821316_2_alg».proof.Proof.LibBatchedDot
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen

/-- The flattened block read as `[256, 64, 32]`: entry `(r, i, e)` is entry `(r, 32 i + e)`. -/
theorem unflatten_apply (v : Vec Ideal S256x2048 .f32) (r : Fin 256) (i : Fin 64) (e : Fin 32) :
    (shapeCast S256x64x32 (truncf (F := Ideal) .bf16 (shapeCast S256x2048 v shapeCasts_S256x2048_S256x2048) bitsLt_bf16_f32)
        shapeCasts_S256x2048_S256x64x32 (ix3 r i e) : EReal)
      = (v (ix2 r ⟨32 * i.val + e.val, by omega⟩) : EReal) := by
  refine (shapeCast_apply _ _ (ix3 r i e) (ix2 r ⟨32 * i.val + e.val, by omega⟩) ?_).trans ?_
  · rw [Shape.rowMajor_val_two, Shape.rowMajor_val_three]
    show r.val * 2048 + (32 * i.val + e.val) = (r.val * 64 + i.val) * 32 + e.val
    omega
  · rw [shapeCast_self]; rfl

/-- The Gram matrix of row `r` of a 256-row block, at `(i, j)`. -/
theorem gram_apply (v : Vec Ideal S256x2048 .f32) (r : Fin 256) (i j : Fin 64) :
    k0_pay2 (F := Ideal) v (ix3 r i j)
      = ∑ e : Fin 32, v (ix2 r ⟨32 * i.val + e.val, by omega⟩) * v (ix2 r ⟨32 * j.val + e.val, by omega⟩) := by
  unfold k0_pay2
  refine (BatchedDot.matmul_zero_apply dot_S256x64x32_S256x64x32_S256x64x64_2_2_1_1_0_0 rfl rfl rfl rfl rfl rfl none _ _
    r i j).trans ?_
  refine Finset.sum_congr rfl fun e _ => ?_
  rw [unflatten_apply v r i e, unflatten_apply v r j e]

/-- The tail of row `i` of every Gram matrix, as a `[256, w]` array: entry `(r, c)` is `g (r, i, i + 1 + c)`. -/
theorem tail_apply (i w : Nat) (g : FVec Ideal S256x64x64 .f32)
    (hs : S256x64x64.Slices ![0, i, i + 1] (⟨3, ![256, 1, w]⟩ : Shape))
    (hc : (⟨3, ![256, 1, w]⟩ : Shape).ShapeCasts (⟨2, ![256, w]⟩ : Shape))
    (r : Fin 256) (c : Fin w) (hi : i < 64) (hj : i + 1 + c.val < 64) :
    shapeCast (⟨2, ![256, w]⟩ : Shape) (extractStridedSlice (⟨3, ![256, 1, w]⟩ : Shape) ![0, i, i + 1] g hs) hc (ix2 r c)
      = g (ix3 r ⟨i, hi⟩ ⟨i + 1 + c.val, hj⟩) := by
  refine (shapeCast_apply _ hc (ix2 r c) (ix3 r (0 : Fin 1) c) ?_).trans ?_
  · rw [Shape.rowMajor_val_two, Shape.rowMajor_val_three]
    show (r.val * 1 + 0) * w + c.val = r.val * w + c.val
    rw [Nat.mul_one, Nat.add_zero]
  · refine extractStridedSlice_apply _ g hs (ix3 r (0 : Fin 1) c) (ix3 r ⟨i, hi⟩ ⟨i + 1 + c.val, hj⟩) fun a => ?_
    match a with
    | ⟨0, _⟩ => show r.val = 0 + r.val; omega
    | ⟨1, _⟩ => show i = i + 0; omega
    | ⟨2, _⟩ => rfl

/-- What one trip stores, as a function of the 256 rows it loads: the rows' Gram matrices' strict upper triangles,
    packed (the store's payload over the values the trip computes before it). -/
def tripPay (v : Vec Ideal S256x2048 .f32) : FVec Ideal S256x2016 .f32 :=
  k0_pay1 (F := Ideal)
    (k0_pay2 v) (k0_pay3 v) (k0_pay4 v) (k0_pay5 v) (k0_pay6 v) (k0_pay7 v) (k0_pay8 v) (k0_pay9 v) (k0_pay10 v)
    (k0_pay11 v) (k0_pay12 v) (k0_pay13 v) (k0_pay14 v) (k0_pay15 v) (k0_pay16 v) (k0_pay17 v) (k0_pay18 v)
    (k0_pay19 v) (k0_pay20 v) (k0_pay21 v) (k0_pay22 v) (k0_pay23 v) (k0_pay24 v) (k0_pay25 v) (k0_pay26 v)
    (k0_pay27 (k0_pay2 v)) (k0_pay28 (k0_pay2 v)) (k0_pay29 (k0_pay2 v)) (k0_pay30 (k0_pay2 v))
    (k0_pay31 (k0_pay2 v)) (k0_pay32 (k0_pay2 v)) (k0_pay33 (k0_pay2 v)) (k0_pay34 (k0_pay2 v))
    (k0_pay35 (k0_pay2 v)) (k0_pay36 (k0_pay2 v)) (k0_pay37 (k0_pay2 v)) (k0_pay38 (k0_pay2 v))
    (k0_pay39 (k0_pay2 v)) (k0_pay40 (k0_pay2 v)) (k0_pay41 (k0_pay2 v)) (k0_pay42 (k0_pay2 v))
    (k0_pay43 (k0_pay2 v)) (k0_pay44 (k0_pay2 v)) (k0_pay45 (k0_pay2 v)) (k0_pay46 (k0_pay2 v))
    (k0_pay47 (k0_pay2 v)) (k0_pay48 (k0_pay2 v)) (k0_pay49 (k0_pay2 v)) (k0_pay50 (k0_pay2 v))
    (k0_pay51 (k0_pay2 v)) (k0_pay52 (k0_pay2 v)) (k0_pay53 (k0_pay2 v)) (k0_pay54 (k0_pay2 v))
    (k0_pay55 (k0_pay2 v)) (k0_pay56 (k0_pay2 v))

/-- A piece that is the tail of row `j` of every Gram matrix `g`: a `[256, 63 - j]` array whose entry `(r, c)` is
    `g (r, j, j + 1 + c)`. -/
def IsTail (g : FVec Ideal S256x64x64 .f32) (j : Nat) (p : (s : Shape) × (s.Idx → EReal)) : Prop :=
  ∃ x : (⟨2, ![256, 63 - j]⟩ : Shape).Idx → EReal, p = ⟨(⟨2, ![256, 63 - j]⟩ : Shape), x⟩ ∧
    ∀ (r : Fin 256) (c : Fin (63 - j)) (hj : j + 1 + c.val < 64),
      x (ix2 r c) = g (ix3 r ⟨j, by omega⟩ ⟨j + 1 + c.val, hj⟩)

/-- A list of pieces that are the tails of rows `i`, `i + 1`, … in order. -/
def TailsFrom (g : FVec Ideal S256x64x64 .f32) : Nat → List ((s : Shape) × (s.Idx → EReal)) → Prop
  | _, [] => True
  | i, p :: rest => IsTail g i p ∧ TailsFrom g (i + 1) rest

/-- The number of columns a piece contributes to a concatenation along the columns of a `[256, 2016]` array. -/
abbrev colsOf (s : Shape) : Nat :=
  if h : s.rank = S256x2016.rank then s.size ((1 : Fin S256x2016.rank).cast h.symm) else 0

theorem IsTail.cols {g : FVec Ideal S256x64x64 .f32} {j : Nat} {p : (s : Shape) × (s.Idx → EReal)} (h : IsTail g j p) :
    colsOf p.1 = 63 - j := by
  obtain ⟨x, rfl, -⟩ := h
  rfl

/-- In a list of tails from row `i`, the piece of row `j ≥ i` sits at position `j - i`. -/
theorem TailsFrom.get {g : FVec Ideal S256x64x64 .f32} :
    ∀ (xs : List ((s : Shape) × (s.Idx → EReal))) (i : Nat), TailsFrom g i xs → ∀ j, i ≤ j → j - i < xs.length →
      ∃ p, xs[j - i]? = some p ∧ IsTail g j p
  | [], _, _, _, _, hlt => absurd hlt (by simp)
  | p :: rest, i, ⟨hp, hT⟩, j, hij, hlt => by
    rcases Nat.eq_or_lt_of_le hij with rfl | hlt'
    · exact ⟨p, by simp, hp⟩
    · have e : j - i = (j - (i + 1)) + 1 := by omega
      obtain ⟨q, hq, hqt⟩ := TailsFrom.get rest (i + 1) hT j hlt' (by simp only [List.length_cons] at hlt; omega)
      exact ⟨q, by rw [e, List.getElem?_cons_succ]; exact hq, hqt⟩

/-- The first `n` tails from row `i` contribute `Tri.off (i + n) - Tri.off i` columns: each row `m` has `63 - m`. -/
theorem TailsFrom.cols_take {g : FVec Ideal S256x64x64 .f32} :
    ∀ (xs : List ((s : Shape) × (s.Idx → EReal))) (i : Nat), TailsFrom g i xs → ∀ n, n ≤ xs.length →
      Cert.Tri.off i + (((xs.take n).map (·.1)).map colsOf).sum = Cert.Tri.off (i + n)
  | _, _, _, 0, _ => by simp
  | [], _, _, n + 1, hn => absurd hn (by simp)
  | p :: rest, i, ⟨hp, hT⟩, n + 1, hn => by
    have ih := TailsFrom.cols_take rest (i + 1) hT n (by simpa using hn)
    have hoff : Cert.Tri.off (i + 1) = Cert.Tri.off i + (63 - i) := rfl
    have hidx : i + (n + 1) = i + 1 + n := by omega
    simp only [List.take_succ_cons, List.map_cons, List.sum_cons, hp.cols]
    rw [hidx, ← ih, hoff]
    omega

/-- The trip's payload is the concatenation, along the columns, of the tails of rows `0 .. 62` of the loaded rows' Gram
    matrices, 63 pieces in all. -/
theorem tripPay_tails (v : Vec Ideal S256x2048 .f32) :
    ∃ (xs : List ((s : Shape) × (s.Idx → EReal))) (h : Shape.Concatenates (xs.map (·.1)) S256x2016 1),
      tripPay v = concatenate S256x2016 1 xs h ∧ xs.length = 63 ∧ TailsFrom (k0_pay2 (F := Ideal) v) 0 xs := by
  refine ⟨_, (by simp only [List.map_cons, List.map_nil]; decide), rfl, rfl, ?_⟩
  iterate 63
    refine ⟨⟨_, rfl, fun r c hj =>
      tail_apply _ _ (k0_pay2 (F := Ideal) v) (by decide) (by decide) r c (by omega) hj⟩, ?_⟩
  trivial

/-- The trip's payload at row `r` and packed position `k`: the inner product of the row's 32-entry slices `Tri.rowOf k` and
    `Tri.colOf k` — position `k` lies in the piece of row `Tri.rowOf k`, at column `k - Tri.off (Tri.rowOf k)` of it. -/
theorem tripPay_apply (v : Vec Ideal S256x2048 .f32) (r : Fin 256) (k : Fin 2016) :
    tripPay v (ix2 r k) = ∑ e : Fin 32,
      v (ix2 r ⟨32 * Cert.Tri.rowOf k.val + e.val, by have := Cert.Tri.row_lt_col k.val k.isLt; omega⟩)
        * v (ix2 r ⟨32 * Cert.Tri.colOf k.val + e.val, by have := Cert.Tri.row_lt_col k.val k.isLt; omega⟩) := by
  obtain ⟨xs, h, hcat, hlen, hT⟩ := tripPay_tails v
  obtain ⟨hn, hlo, hhi⟩ := Cert.Tri.rowOf_spec k.val k.isLt
  obtain ⟨hrc, hc64⟩ := Cert.Tri.row_lt_col k.val k.isLt
  have hlt : Cert.Tri.rowOf k.val < xs.length := by rw [hlen]; exact hn
  obtain ⟨p, hp, x, rfl, hval⟩ := hT.get xs 0 (Cert.Tri.rowOf k.val) (Nat.zero_le _) (by rw [Nat.sub_zero]; exact hlt)
  rw [Nat.sub_zero] at hp
  have hx : xs[Cert.Tri.rowOf k.val] = ⟨(⟨2, ![256, 63 - Cert.Tri.rowOf k.val]⟩ : Shape), x⟩ :=
    (List.getElem?_eq_some_iff.mp hp).2
  have hpre : (((xs.take (Cert.Tri.rowOf k.val)).map (·.1)).map colsOf).sum = Cert.Tri.off (Cert.Tri.rowOf k.val) := by
    have := hT.cols_take xs 0 (Cert.Tri.rowOf k.val) (Nat.le_of_lt hlt)
    rw [Nat.zero_add] at this
    exact (Nat.zero_add _).symm.trans this
  have hoff : Cert.Tri.off (Cert.Tri.rowOf k.val + 1)
      = Cert.Tri.off (Cert.Tri.rowOf k.val) + (63 - Cert.Tri.rowOf k.val) := rfl
  have hcw : k.val - Cert.Tri.off (Cert.Tri.rowOf k.val) < 63 - Cert.Tri.rowOf k.val := by omega
  have hj : Cert.Tri.rowOf k.val + 1 + (k.val - Cert.Tri.off (Cert.Tri.rowOf k.val)) < 64 := hc64
  rw [hcat]
  refine (concatenate_apply_piece (1 : Fin S256x2016.rank) xs h (ix2 r k) (Cert.Tri.rowOf k.val) hlt _ x hx rfl
    (Cert.Tri.off (Cert.Tri.rowOf k.val)) hpre (ix2 r ⟨k.val - Cert.Tri.off (Cert.Tri.rowOf k.val), hcw⟩) ?_ ?_).trans ?_
  · intro b hb
    match b with
    | ⟨0, _⟩ => rfl
    | ⟨1, _⟩ => exact absurd rfl hb
  · show Cert.Tri.off (Cert.Tri.rowOf k.val) + (k.val - Cert.Tri.off (Cert.Tri.rowOf k.val)) = k.val
    omega
  · rw [hval r ⟨_, hcw⟩ hj]
    exact gram_apply v r _ _

end Cert.KernelIdeal.Pay

end
-- ==== Proof.KernelTrip.lean ====
/-
  The kernel body's two trips, as written pieces.

  Trip `k` of the body's loop loads rows `256 k .. 256 k + 255` of the staged input block and stores, at the same rows of
  the staged output block, the packed Gram triangles of those rows (`Pay.tripPay`). The run of the body found by symbolic
  execution records each trip as one written piece; this module reads the piece off the trip's definition, once, and lists
  the two pieces of the whole body.
-/
import proofs.«137568_j11974368821316_2_alg».proof.Proof.Gen.KernelIdeal.Frame
import proofs.«137568_j11974368821316_2_alg».proof.Proof.KernelPay
import Idealize.ShloMosaic.Lib.Pipeline.Value
import Idealize.ShloMosaic.Lib.ValueIdx

set_option maxRecDepth 16384

noncomputable section

namespace Cert.KernelIdeal.Trip

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The 256 rows trip `k` loads from the input's staging buffer holding `X`. -/
abbrev tripLoad (a1 : Memref sig .tc .vmem S512x2048 .f32) (X : BufTy.Contents (Elt Ideal) a1.view.ty)
    (k : Fin k0_t1_loop.trips) : Vec Ideal S256x2048 .f32 :=
  View.readAt (Elt Ideal) a1.view (Rect.unit (s := S512x2048) (k0_off1 k) S256x2048.size (k0_off1_inb k)).toLoadRect X

/-- Trip `k` writes one piece: at its 256 rows of the output's staging buffer, the packed Gram triangles of the rows
    it loaded. -/
theorem tripL_eq (c : Dev nD) (i : grid0.Coords) (a1 : Memref sig .tc .vmem S512x2048 .f32) (h1 : a1.IsWhole)
    (a2 : Memref sig .tc .vmem S512x2016 .f32) (h2 : a2.IsWhole) (X : BufTy.Contents (Elt Ideal) a1.view.ty)
    (k : Fin k0_t1_loop.trips) :
    tripL_k0_t1 (F := Ideal) Variants.none c none i a1 h1 a2 h2 X k
      = [⟨Rect.unit (s := S512x2016) (k0_off2 k) S256x2016.size (k0_off2_inb k), Pay.tripPay (tripLoad a1 X k)⟩] := by
  unfold tripL_k0_t1 trip_k0_t1
  dsimp only
  sl_unfold_run_names
  rfl

/-- The loop has two trips. -/
theorem trips_eq : k0_t1_loop.trips = 2 := by decide

/-- The first trip. -/
def tr0 : Fin k0_t1_loop.trips := ⟨0, by rw [trips_eq]; decide⟩
/-- The second trip. -/
def tr1 : Fin k0_t1_loop.trips := ⟨1, by rw [trips_eq]; decide⟩

/-- The packed Gram triangles of the rows of an `[R, 2048]` array: entry `(r, k)` is the inner product of row `r`'s
    32-entry slices `Tri.rowOf k` and `Tri.colOf k`. -/
def rowGram {R : Nat} (A : (⟨2, ![R, 2048]⟩ : Shape).Idx → EReal) : (⟨2, ![R, 2016]⟩ : Shape).Idx → EReal :=
  fun y =>
    have h1 : (y 1).val < 2016 := (y 1).isLt
    ∑ e : Fin 32,
      A (ix2 ⟨(y 0).val, (y 0).isLt⟩
          ⟨32 * Cert.Tri.rowOf (y 1).val + e.val, by have := Cert.Tri.row_lt_col (y 1).val h1; omega⟩)
        * A (ix2 ⟨(y 0).val, (y 0).isLt⟩
          ⟨32 * Cert.Tri.colOf (y 1).val + e.val, by have := Cert.Tri.row_lt_col (y 1).val h1; omega⟩)

/-- A trip's payload is the packed Gram triangles of the rows it loaded. -/
theorem tripPay_eq (v : Vec Ideal S256x2048 .f32) : Pay.tripPay v = rowGram (R := 256) v := by
  funext y
  rw [eq_ix2 y]
  exact Pay.tripPay_apply v (y 0) (y 1)

/-- The body's run leaves two pieces, the second trip's in front of the first's. -/
theorem pieces_eq (c : Dev nD) (i : grid0.Coords) (a1 : Memref sig .tc .vmem S512x2048 .f32) (h1 : a1.IsWhole)
    (a2 : Memref sig .tc .vmem S512x2016 .f32) (h2 : a2.IsWhole) (x0 : Vec Ideal S512x2048 .f32) :
    (kernelRun0_A (F := Ideal) c i a1 h1 a2 h2 x0).1
      = tripL_k0_t1 (F := Ideal) Variants.none c none i a1 h1 a2 h2 (h1.unread x0) tr1
        ++ (tripL_k0_t1 (F := Ideal) Variants.none c none i a1 h1 a2 h2 (h1.unread x0) tr0 ++ []) := by
  unfold kernelRun0_A
  dsimp only
  show pb_k0_t1 Variants.none c none i a1 h1 a2 h2 (h1.unread x0) (tr1.val + 1) = _
  rw [pb_k0_t1_succ]
  show _ ++ pb_k0_t1 Variants.none c none i a1 h1 a2 h2 (h1.unread x0) (tr0.val + 1) = _
  rw [pb_k0_t1_succ]
  rfl

/-- The rows trip `k` loads from a staging buffer holding the block `x0`: rows `256 k .. 256 k + 255` of `x0`. -/
theorem tripLoad_apply (a1 : Memref sig .tc .vmem S512x2048 .f32) (h1 : a1.IsWhole) (x0 : Vec Ideal S512x2048 .f32)
    (k : Fin k0_t1_loop.trips) (r : Fin 256) (q : Fin 2048) :
    tripLoad a1 (h1.unread x0) k (ix2 r q)
      = x0 (ix2 ⟨256 * k.val + r.val, by have := lt_of_lt_of_eq k.isLt trips_eq; omega⟩ q) := by
  unfold tripLoad
  rw [View.readAt_eq_ld, h1.read_unread]
  show x0 ((Rect.unit (s := S512x2048) (k0_off1 k) S256x2048.size (k0_off1_inb k)).emb (ix2 r q)) = _
  refine congrArg x0 (funext fun a => Fin.ext ?_)
  rw [Rect.emb_apply]
  simp only [Rect.off_unit, Rect.stride_unit, k0_off1_eq k]
  match a with
  | ⟨0, _⟩ => show 256 * k.val + 1 * r.val = 256 * k.val + r.val; omega
  | ⟨1, _⟩ => show 0 + 1 * q.val = q.val; omega

/-- One piece's payload agrees with the packed Gram triangles of the whole block `x0`, at the piece's place. -/
theorem piece_eq (a1 : Memref sig .tc .vmem S512x2048 .f32) (h1 : a1.IsWhole) (x0 : Vec Ideal S512x2048 .f32)
    (k : Fin k0_t1_loop.trips) (x : (Rect.unit (s := S512x2016) (k0_off2 k) S256x2016.size (k0_off2_inb k)).shape.Idx) :
    Pay.tripPay (tripLoad a1 (h1.unread x0) k) x
      = rowGram (R := 512) x0 ((Rect.unit (s := S512x2016) (k0_off2 k) S256x2016.size (k0_off2_inb k)).emb x) := by
  rw [tripPay_eq]
  have hk : k.val < 2 := lt_of_lt_of_eq k.isLt trips_eq
  have e0 : (((Rect.unit (s := S512x2016) (k0_off2 k) S256x2016.size (k0_off2_inb k)).emb x) 0).val
      = 256 * k.val + (x 0).val := by
    rw [Rect.emb_apply]; simp only [Rect.off_unit, Rect.stride_unit, k0_off2_eq k]
    show 256 * k.val + 1 * (x 0).val = _; omega
  have e1 : (((Rect.unit (s := S512x2016) (k0_off2 k) S256x2016.size (k0_off2_inb k)).emb x) 1).val = (x 1).val := by
    rw [Rect.emb_apply]; simp only [Rect.off_unit, Rect.stride_unit, k0_off2_eq k]
    show 0 + 1 * (x 1).val = _; omega
  unfold rowGram
  dsimp only
  refine Finset.sum_congr rfl fun e _ => ?_
  have hr : (x 0).val < 256 := (x 0).isLt
  have hq : (x 1).val < 2016 := (x 1).isLt
  have hrc := Cert.Tri.row_lt_col (x 1).val hq
  rw [tripLoad_apply a1 h1 x0 k ⟨(x 0).val, hr⟩ ⟨32 * Cert.Tri.rowOf (x 1).val + e.val, by omega⟩,
    tripLoad_apply a1 h1 x0 k ⟨(x 0).val, hr⟩ ⟨32 * Cert.Tri.colOf (x 1).val + e.val, by omega⟩]
  congr 1
  · refine congrArg x0 (funext fun a => Fin.ext ?_)
    match a with
    | ⟨0, _⟩ => exact e0.symm
    | ⟨1, _⟩ => show 32 * Cert.Tri.rowOf (x 1).val + e.val = 32 * Cert.Tri.rowOf _ + e.val; rw [e1]
  · refine congrArg x0 (funext fun a => Fin.ext ?_)
    match a with
    | ⟨0, _⟩ => exact e0.symm
    | ⟨1, _⟩ => show 32 * Cert.Tri.colOf (x 1).val + e.val = 32 * Cert.Tri.colOf _ + e.val; rw [e1]

/-- WHAT THE BODY LEAVES in the output's staging buffer: the packed Gram triangles of the input block's 512 rows. -/
theorem out_block (c : Dev nD) (i : grid0.Coords) (a1 : Memref sig .tc .vmem S512x2048 .f32) (h1 : a1.IsWhole)
    (a2 : Memref sig .tc .vmem S512x2016 .f32) (h2 : a2.IsWhole) (x0 : Vec Ideal S512x2048 .f32) :
    out0_A_1 (F := Ideal) c i a1 h1 a2 h2 x0 = rowGram (R := 512) x0 := by
  unfold out0_A_1
  rw [View.read_writes_eq_canon _ _ _ (cover0_A_1 c i a1 h1 a2 h2 x0)]
  funext y
  refine View.canon_apply_of_pieces (rowGram (R := 512) x0) _ ?_ y (cover0_A_1 c i a1 h1 a2 h2 x0 y)
  rw [pieces_eq, tripL_eq, tripL_eq]
  intro p hp x
  simp only [List.cons_append, List.nil_append, List.mem_cons, List.not_mem_nil, or_false] at hp
  rcases hp with rfl | rfl
  · exact piece_eq a1 h1 x0 tr1 x
  · exact piece_eq a1 h1 x0 tr0 x

end Cert.KernelIdeal.Trip

end
-- ==== Proof.Spec.lean ====
/-
  The common value of the two programs.

  For `x : [8192, 64, 32]` over the extended reals, entry `(b, k)` of the result `[8192, 2016]` is the inner product
  `∑ e < 32, x (b, i, e) * x (b, j, e)` of rows `i < j` of batch entry `b`, where `(i, j)` is the `k`-th pair of the strict upper
  triangle of a 64 × 64 matrix in row-major order (`Cert.Tri`).
-/
import proofs.«137568_j11974368821316_2_alg».proof.Proof.Tri
import Idealize.ShloMosaic.PureOps.Ideal
import Idealize.ShloMosaic.Lib.ValueIdx

noncomputable section

namespace Cert.Spec

open Idealize.ShloMosaic Idealize.ShloMosaic.ValueIdx

/-- The row of the `k`-th strictly upper triangular pair. -/
def row (k : Fin 2016) : Fin 64 :=
  ⟨Cert.Tri.rowOf k.val, by have := Cert.Tri.row_lt_col k.val k.isLt; omega⟩

/-- The column of the `k`-th strictly upper triangular pair. -/
def col (k : Fin 2016) : Fin 64 := ⟨Cert.Tri.colOf k.val, (Cert.Tri.row_lt_col k.val k.isLt).2⟩

theorem row_val (k : Fin 2016) : (row k).val = Cert.Tri.rowOf k.val := rfl
theorem col_val (k : Fin 2016) : (col k).val = Cert.Tri.colOf k.val := rfl

/-- The pairwise inner products of each batch entry's 64 rows, pairs `i < j` packed in row-major order. -/
def packedGram (x : (⟨3, ![8192, 64, 32]⟩ : Shape).Idx → EReal) : (⟨2, ![8192, 2016]⟩ : Shape).Idx → EReal :=
  fun y => ∑ e : Fin 32, x (ix3 (y 0) (row (y 1)) e) * x (ix3 (y 0) (col (y 1)) e)

theorem packedGram_apply (x : (⟨3, ![8192, 64, 32]⟩ : Shape).Idx → EReal) (b : Fin 8192) (k : Fin 2016) :
    packedGram x (ix2 b k) = ∑ e : Fin 32, x (ix3 b (row k) e) * x (ix3 b (col k) e) := rfl

end Cert.Spec

end
-- ==== Proof.KernelValue.lean ====
/-
  The kernel's result as a closed term of its argument.

  The kernel reshapes its argument `x : [8192, 64, 32]` to `[8192, 2048]` (row `b` is the 64 rows of batch entry `b`
  laid end to end, 32 entries each) and sweeps it in 16 blocks of 512 rows; from each block the body leaves, in the
  matching block of the `[8192, 2016]` result, the packed Gram triangles of the block's rows. Packing a row's Gram
  triangle reads that row only, so the triangles of a block's rows are the block of the whole array's triangles: every
  grid point writes back its block of one and the same array `rowGram (reshaped x)`, the 16 blocks tile the result,
  and the result is that array. Read through the reshape — entry `32 i + e` of row `b` is `x (b, i, e)` — it is the
  pairwise inner products `Spec.packedGram x`.
-/
import proofs.«137568_j11974368821316_2_alg».proof.Proof.Gen.KernelIdeal.Value
import proofs.«137568_j11974368821316_2_alg».proof.Proof.KernelTrip
import proofs.«137568_j11974368821316_2_alg».proof.Proof.Spec
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps, decided over the 16 grid points -/

/-- The input's and the result's blocks move together down the rows, both stay at column block 0, and the row block
    is one of the 16. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every one of the 16 row blocks of the result is some point's. -/
theorem idx_onto : ∀ q : Fin 16, ∃ t : Fin cfg0.N, win0_1.index t = ![q.val, 0] :=
  (by decide +kernel : ∀ q : Fin 16, ∃ t : Fin grid0.N, win0_1.index t = ![q.val, 0])

/-! ## A block of rows -/

/-- Packing Gram triangles row by row commutes with taking a block of rows: if `B` is rows `512 q …` of `A`, then
    the triangles of `B` at `y` are the triangles of `A` at the index `512 q` rows further down. -/
theorem rowGram_block (A : (⟨2, ![8192, 2048]⟩ : Shape).Idx → EReal) (B : (⟨2, ![512, 2048]⟩ : Shape).Idx → EReal)
    (q : Nat) (hq : q ≤ 15)
    (hB : ∀ (r : Fin 512) (s : Fin 2048), B (ix2 r s) = A (ix2 ⟨q * 512 + r.val, by have := r.isLt; omega⟩ s))
    (y : (⟨2, ![512, 2016]⟩ : Shape).Idx) (i : (⟨2, ![8192, 2016]⟩ : Shape).Idx)
    (hi0 : (i 0).val = q * 512 + (y 0).val) (hi1 : (i 1).val = (y 1).val) :
    Trip.rowGram (R := 512) B y = Trip.rowGram (R := 8192) A i := by
  unfold Trip.rowGram
  dsimp only
  refine Finset.sum_congr rfl fun e _ => ?_
  rw [hB, hB]
  congr 2 <;> refine congrArg₂ ix2 (Fin.ext ?_) (Fin.ext ?_) <;> simp only [hi0, hi1]

/-! ## What each grid point writes back -/

/-- Point `t` writes back block `t` of the packed Gram triangles of the whole reshaped argument: the body leaves the
    triangles of its input block's rows, the input block is the same 512 rows of the reshaped argument as the result
    block is of the result, and triangles are taken row by row. -/
theorem flushed_eq (c : Dev nD) (t : Fin cfg0.N) :
    (dats m 0 c).flushed 1 t
      = ((cfg0.win 1).blk t).view.read (Elt Ideal) (Trip.rowGram (R := 8192) (V m c main_v0)) := by
  rw [Value.flushed1_A, Trip.out_block]
  obtain ⟨e0, e1, e2, e3⟩ := idx_facts t
  funext j
  show Trip.rowGram (R := 512) (iblk m c 0 t) j
    = Trip.rowGram (R := 8192) (V m c main_v0) (((cfg0.win 1).blk t).view.emb j)
  refine rowGram_block (V m c main_v0) (iblk m c 0 t) (win0_1.index t (0 : Fin 2)) e3 (fun r s => ?_) j _ ?_ ?_
  · show V m c main_v0 (((cfg0.win 0).blk t).view.emb (ix2 r s)) = V m c main_v0 _
    refine congrArg (V m c main_v0) (funext fun a => Fin.ext ?_)
    match a with
    | ⟨0, _⟩ => show win0_0.index t (0 : Fin 2) * 512 + 1 * r.val = win0_1.index t (0 : Fin 2) * 512 + r.val; omega
    | ⟨1, _⟩ => show win0_0.index t (1 : Fin 2) * 2048 + 1 * s.val = s.val; omega
  · show win0_1.index t (0 : Fin 2) * 512 + 1 * (j 0).val = win0_1.index t (0 : Fin 2) * 512 + (j 0).val; omega
  · show win0_1.index t (1 : Fin 2) * 2016 + 1 * (j 1).val = (j 1).val; omega

/-! ## The 16 blocks tile the result -/

/-- An index of the result is in point `t`'s block iff each coordinate is in the block's range on its axis. -/
theorem mem_blk (t : Fin cfg0.N) (i : S8192x2016.Idx) :
    i ∈ ((cfg0.win 1).blk t).view.set ↔ ∀ a : Fin 2, win0_1.index t a * S512x2016.size a ≤ (i a).val
      ∧ (i a).val < win0_1.index t a * S512x2016.size a + S512x2016.size a := by
  show i ∈ ((View.whole main_v1).slice (win0_1.rect t)).set ↔ _
  rw [View.set_slice_whole, Rect.mem_set_unit]
  exact Iff.rfl

/-- Row `r` of the result lies in the block of the point whose row block is `r / 512`. -/
theorem cover (i : S8192x2016.Idx) :
    ∃ t : Fin cfg0.N, (cfg0.win 1).flush t = true ∧ i ∈ ((cfg0.win 1).blk t).view.set := by
  have hi0 : (i 0).val < 8192 := (i 0).isLt
  have hi1 : (i 1).val < 2016 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 2016 ≤ (i 1).val ∧ (i 1).val < win0_1.index t (1 : Fin 2) * 2016 + 2016
    omega

/-- After the run the result array holds the packed Gram triangles of the rows of the reshaped argument. -/
theorem final (c : Dev nD) : (dats m 0 c).arrAt 1 cfg0.N = Trip.rowGram (R := 8192) (V m c main_v0) :=
  (dats m 0 c).arrAt_eq_of_cover 1 _ (fun t _ => flushed_eq m c t) cover

/-! ## Through the reshape -/

/-- The one host operation before the sweep: the swept array is the argument reshaped to `[8192, 2048]`. -/
theorem V_main_v0 (c : Dev nD) :
    (V m c main_v0 : S8192x2048.Idx → EReal)
      = shapeCast S8192x2048 (m ((c : Thread nD τ).loc main_arg0)) Facts₀.shapeCasts_S8192x64x32_S8192x2048 := by
  dsimp only [Gen.V, Gen.hostOps0]
  after_results
  rfl

/-- Row `b` of the reshaped array holds `x (b, i, e)` at column `32 i + e`, so its packed Gram triangle is the
    pairwise inner products of batch entry `b`'s rows. -/
theorem rowGram_reshape (x : (⟨3, ![8192, 64, 32]⟩ : Shape).Idx → EReal) (h : S8192x64x32.ShapeCasts S8192x2048) :
    Trip.rowGram (R := 8192) (shapeCast S8192x2048 x h) = Cert.Spec.packedGram x := by
  funext y
  unfold Trip.rowGram Cert.Spec.packedGram
  dsimp only
  refine Finset.sum_congr rfl fun e _ => ?_
  have hy0 : (y 0).val < 8192 := (y 0).isLt
  have hy1 : (y 1).val < 2016 := (y 1).isLt
  have hrc := Cert.Tri.row_lt_col (y 1).val hy1
  have he : e.val < 32 := e.isLt
  rw [shapeCast_apply x h _ (ix3 (y 0) (Cert.Spec.row (y 1)) e)
        (by rw [Shape.rowMajor_val_three, Shape.rowMajor_val_two]
            show ((y 0).val * 64 + Cert.Tri.rowOf (y 1).val) * 32 + e.val
              = (y 0).val * 2048 + (32 * Cert.Tri.rowOf (y 1).val + e.val)
            omega),
      shapeCast_apply x h _ (ix3 (y 0) (Cert.Spec.col (y 1)) e)
        (by rw [Shape.rowMajor_val_three, Shape.rowMajor_val_two]
            show ((y 0).val * 64 + Cert.Tri.colOf (y 1).val) * 32 + e.val
              = (y 0).val * 2048 + (32 * Cert.Tri.colOf (y 1).val + e.val)
            omega)]

/-! ## The run, read -/

/-- From any memory with zero counters every weakly fair execution of the kernel program terminates with the result
    buffer at the pairwise inner products of the argument's launch contents and the argument unchanged. -/
theorem run : θ_run (defs (F := Ideal)) (onTc (τ := τ) (main (F := Ideal))) ⟨m, fun _ => 0, ρ⟩ fun r => ∀ c : Dev nD,
      r.2.mem ((c.tc : Thread nD τ).loc main_v1) = Cert.Spec.packedGram (m ((c.tc : Thread nD τ).loc main_arg0))
      ∧ r.2.mem ((c.tc : Thread nD τ).loc main_arg0) = m ((c.tc : Thread nD τ).loc main_arg0) :=
  (θ_run defs _ _).mono (fun r h c => ⟨(h c).1.trans ((final m c).trans
      ((congrArg (Trip.rowGram (R := 8192)) (V_main_v0 m c)).trans (rowGram_reshape _ _))), (h c).2⟩)
    (Value.run_blocks m ρ)

end Cert.KernelIdeal.HandValue

end
-- ==== Proof.RefStages.lean ====
/-
  The reference's host computation, stage by stage, as closed terms.

  The reference forms the Gram matrices `gram b i j = Σ_e x b i e * x b j e` and returns, for each batch `b`, the
  entries of the strict upper triangle `i < j` in row-major order. The index pairs are not written down: they are
  computed, once, from the 64 × 64 matrix of ones. Its strict upper triangle is kept (`row ≥ col` is zeroed), the
  result is compared with zero and flattened to 4096 bits (`nzFlat`); a running sum of the bits (`csum`) numbers the
  set positions; clamping below at zero and wrapping negatives (`wrapped`) changes nothing on these values; a
  scatter-add of ones at those 4096 numbers into 2016 zero bins (`bins`, the number 2016 itself falling outside and
  being dropped) followed by a second running sum (`flat`) yields, at packed position `k`, the flat position
  `64 * row + col` of the `(k+1)`-th set bit. Floor division and remainder by 64 split it into the row and the
  column (`rowIdx`, `colIdx`, after a wrap of negatives that again changes nothing), the two are laid side by side as
  the 2016 × 2 table `tbl`, and the result gathers `gram` at that table (`refOut`).

  Each definition below is the composition of exactly the operations the printed program applies, in its order, on
  the same operands; nothing is evaluated or simplified here.
-/
import proofs.«137568_j11974368821316_2_alg».proof.ReferenceIdeal
import Idealize.ShloMosaic.PureOps.Ideal

noncomputable section

namespace Cert.ReferenceIdeal.Stages

open Idealize.ShloMosaic Cert.ReferenceIdeal

variable [Cert.ReferenceIdeal.Facts]
open Facts₀ Facts

/-- The 64 × 64 matrix of ones with everything on or below the diagonal replaced by zero: where
    `row + 0 ≥ col` the zero matrix is selected, elsewhere the ones. -/
def triuOnes : FVec Ideal S64x64 .f32 :=
  select
    (cmpi .sge
      (addi (iotaInDim S64x64 32 0) (broadcastInDim S64x64 ![] bcast_S_S64x64 (constantI S_ 32 0#32)))
      (iotaInDim S64x64 32 1))
    (broadcastInDim S64x64 ![] bcast_S_S64x64 (constant (F := Ideal) S_ .f32 0x00000000#32))
    (broadcastInDim S64x64 ![] bcast_S_S64x64 (constant (F := Ideal) S_ .f32 0x3F800000#32))

/-- The mask of non-zero entries of `triuOnes`, one bit per entry. -/
def nzMask : IVec S64x64 1 :=
  cmpf .une triuOnes (broadcastInDim S64x64 ![] bcast_S_S64x64 (constant (F := Ideal) S_ .f32 0x00000000#32))

/-- The mask flattened to length 4096 in row-major order, each bit widened to a 32-bit integer. -/
def nzFlat : IVec S4096 32 :=
  extui 32 (shapeCast S4096 nzMask shapeCasts_S64x64_S4096) natLt_1_32

/-- The running sum of `nzFlat`: a window of 4096 with 4095 zeros padded in front, summed from zero. -/
def csum : IVec S4096 32 :=
  Host.reduceWindow IntOp.addi ![4096] ![1] ![4095] ![0] nzFlat
    (broadcastInDim S_ ![] bcast_S_S_ (constantI S_ 32 0#32))
    reduceWindows_S4096_S4096_w4096s1p4095_0 h_S_

/-- The running sum clamped below at zero. -/
def clipped : IVec S4096 32 :=
  maxsi (broadcastInDim S4096 ![] bcast_S_S4096 (constantI S_ 32 0#32)) csum

/-- Negative entries of `clipped` moved up by 2016, the others kept. -/
def wrapped : IVec S4096 32 :=
  select
    (cmpi .slt clipped (broadcastInDim S4096 ![] bcast_S_S4096 (constantI S_ 32 0#32)))
    (addi clipped (broadcastInDim S4096 ![] bcast_S_S4096 (constantI S_ 32 2016#32)))
    clipped

/-- 2016 zero bins, a one added to bin `wrapped p` for each of the 4096 positions `p` (a bin number outside
    `0 … 2015` adds nothing). -/
def bins : IVec S2016 32 :=
  Host.scatter scatter_S2016_S4096x1_S4096_n_0_0_1 IntOp.addi
    (broadcastInDim S2016 ![] bcast_S_S2016 (constantI S_ 32 0#32))
    (broadcastInDim S4096x1 ![0] bcast_S4096_S4096x1_0 wrapped)
    (broadcastInDim S4096 ![] bcast_S_S4096 (constantI S_ 32 1#32))

/-- The running sum of `bins`: at packed position `k`, the flat position of the `(k+1)`-th set bit of the mask. -/
def flat : IVec S2016 32 :=
  Host.reduceWindow IntOp.addi ![2016] ![1] ![2015] ![0] bins
    (broadcastInDim S_ ![] bcast_S_S_ (constantI S_ 32 0#32))
    reduceWindows_S2016_S2016_w2016s1p2015_0 h_S_

/-- Floor division of every entry of `x` by the scalar `d`: the truncated quotient, less one where the signs of
    `x` and `d` differ and the truncated remainder is not zero. -/
def floorDiv (x : IVec S2016 32) (d : IVec S_ 32) : IVec S2016 32 :=
  select
    (andi
      (cmpi .ne (signi x) (broadcastInDim S2016 ![] bcast_S_S2016 (signi d)))
      (cmpi .ne (Host.remsi x (broadcastInDim S2016 ![] bcast_S_S2016 d))
        (broadcastInDim S2016 ![] bcast_S_S2016 (constantI S_ 32 0#32))))
    (subi (Host.divsi x (broadcastInDim S2016 ![] bcast_S_S2016 d))
      (broadcastInDim S2016 ![] bcast_S_S2016 (constantI S_ 32 1#32)))
    (Host.divsi x (broadcastInDim S2016 ![] bcast_S_S2016 d))

/-- The divisor the remainder is taken by: `d`, or one where `d` is zero. -/
def remDen (d : IVec S_ 32) : IVec S_ 32 :=
  select (cmpi .eq d (constantI S_ 32 0#32)) (constantI S_ 32 1#32) d

/-- The truncated remainder of every entry of `x` by that divisor. -/
def remRaw (x : IVec S2016 32) (d : IVec S_ 32) : IVec S2016 32 :=
  Host.remsi x (broadcastInDim S2016 ![] bcast_S_S2016 (remDen d))

/-- The remainder with the sign of the divisor: the truncated one, plus the divisor where it is not zero and its
    sign differs from the divisor's. -/
def remainder (x : IVec S2016 32) (d : IVec S_ 32) : IVec S2016 32 :=
  select
    (andi
      (cmpi .ne
        (cmpi .slt (remRaw x d) (broadcastInDim S2016 ![] bcast_S_S2016 (constantI S_ 32 0#32)))
        (broadcastInDim S2016 ![] bcast_S_S2016 (cmpi .slt (remDen d) (constantI S_ 32 0#32))))
      (cmpi .ne (remRaw x d) (broadcastInDim S2016 ![] bcast_S_S2016 (constantI S_ 32 0#32))))
    (addi (remRaw x d) (broadcastInDim S2016 ![] bcast_S_S2016 (remDen d)))
    (remRaw x d)

/-- Negative entries moved up by 64, the others kept. -/
def wrap64 (v : IVec S2016 32) : IVec S2016 32 :=
  select
    (cmpi .slt v (broadcastInDim S2016 ![] bcast_S_S2016 (constantI S_ 32 0#32)))
    (addi v (broadcastInDim S2016 ![] bcast_S_S2016 (constantI S_ 32 64#32)))
    v

/-- The row of each packed position: `flat` floor-divided by 64, reduced modulo 64, negatives wrapped. -/
def rowIdx : IVec S2016 32 :=
  wrap64 (remainder (floorDiv flat (constantI S_ 32 64#32)) (constantI S_ 32 64#32))

/-- The column of each packed position: `flat` floor-divided by 1, reduced modulo 64, negatives wrapped. -/
def colIdx : IVec S2016 32 :=
  wrap64 (remainder (floorDiv flat (constantI S_ 32 1#32)) (constantI S_ 32 64#32))

/-- The index table: row `k` is the pair `(rowIdx k, colIdx k)`. -/
def tbl : IVec S2016x2 32 :=
  concatenate S2016x2 1
    [⟨S2016x1, broadcastInDim S2016x1 ![0] bcast_S2016_S2016x1_0 rowIdx⟩,
     ⟨S2016x1, broadcastInDim S2016x1 ![0] bcast_S2016_S2016x1_0 colIdx⟩]
    concatenates_S2016x1_S2016x1_S2016x2_d1

/-- The reference's result as a function of its argument: the Gram matrices gathered at the index table. -/
def refOut (x : FVec Ideal S8192x64x32 .f32) : FVec Ideal S8192x2016 .f32 :=
  Host.gather gather_S8192x64x64_S2016x2_S8192x2016_0_12_n_n_12_1_819211
    (Host.dotGeneral dot_S8192x64x32_S8192x64x32_S8192x64x64_2_2_1_1_0_0 none x x) tbl

end Cert.ReferenceIdeal.Stages

end
-- ==== Proof.RefOps.lean ====
/-
  The reference program as a list of host operations, and its run as their fold.

  The reference has no kernel: its @main is a straight line of 136 array operations, 94 of them inside the helper
  functions it calls (the triangular mask, the two running sums, the clamp, and twice each the floor division and the
  remainder, which in turn call a select). A call means its callee's body on the caller's buffers, so once the
  bodies are unfolded at their call sites @main is the sequence `ops` below, each callee's operations listed in place
  over that call's own buffers. Every weakly fair execution then terminates with each buffer at the fold of the
  operations over the launch contents (`run_main`).
-/
import proofs.«137568_j11974368821316_2_alg».proof.Proof.RefStages
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable [Cert.ReferenceIdeal.Facts]
open Facts₀ Facts

variable {F : FTy → Type} [FloatOps F]

/-- @main's 136 operations in order, the calls unfolded: the Gram product and the matrix of ones (3); the triangular
    mask (9); the comparison with zero (3); flattening, widening and the first running sum (5); the zero bins and
    the clamp (6); the wrap of negatives, the index column, the ones and the scatter-add (11); the second running sum
    (3); then for the row and for the column a divisor, the floor division (16), a modulus and the remainder (21);
    the two wraps of negatives (14); the two columns, their concatenation and the gather (4). -/
abbrev ops : List (HloOp τ sig (Elt F)) :=
  [ StableHlo.binary main_arg0 main_arg0 main_v0 ((fun l r => Host.dotGeneral dot_S8192x64x32_S8192x64x32_S8192x64x64_2_2_1_1_0_0 none l r) : (⟨S8192x64x32, .f32⟩ : BufTy).Contents (Elt F) → (⟨S8192x64x32, .f32⟩ : BufTy).Contents (Elt F) → (⟨S8192x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 0#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 (.of main_v1 : StableHlo.TRef sig ⟨S64x64, .f32⟩) main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S4096 ![] bcast_S_S4096),
    StableHlo.TRef.binary main_call2.v1 (.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_),
    StableHlo.nullary main_c_5 (constantI S_ 32 64#32),
    StableHlo.TRef.unary (.of main_c_5 : StableHlo.TRef sig ⟨S_, .i32⟩) main_call4.v0 (broadcastInDim S2016 ![] bcast_S_S2016),
    StableHlo.TRef.binary (.of main_v16 : StableHlo.TRef sig ⟨S2016, .i32⟩) main_call4.v0 main_call4.v1 Host.divsi,
    StableHlo.TRef.unary (.of main_v16 : StableHlo.TRef sig ⟨S2016, .i32⟩) main_call4.v2 signi,
    StableHlo.TRef.unary (.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (.of main_c_5 : StableHlo.TRef sig ⟨S_, .i32⟩) main_call4.v6 (broadcastInDim S2016 ![] bcast_S_S2016),
    StableHlo.TRef.binary (.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select,
    StableHlo.nullary main_c_6 (constantI S_ 32 64#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S2016 ![] bcast_S_S2016),
    StableHlo.TRef.binary (.of main_v16 : StableHlo.TRef sig ⟨S2016, .i32⟩) main_call6.v0 main_call6.v1 Host.divsi,
    StableHlo.TRef.unary (.of main_v16 : StableHlo.TRef sig ⟨S2016, .i32⟩) main_call6.v2 signi,
    StableHlo.TRef.unary (.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (.of main_c_7 : StableHlo.TRef sig ⟨S_, .i32⟩) main_call6.v6 (broadcastInDim S2016 ![] bcast_S_S2016),
    StableHlo.TRef.binary (.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select,
    StableHlo.nullary main_c_8 (constantI S_ 32 64#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v0 main_v33 main_v34 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

-- 136 binds re-associated: the rewrite under the chain recurses once per statement
set_option maxRecDepth 4096 in
set_option maxHeartbeats 1600000 in
/-- @main is that straight line: with the functions' definitions unfolded at their calls both sides are one chain
    of steps once sequencing is re-associated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-- From any memory with zero counters every weakly fair execution of @main terminates, and every buffer ends at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibFoldNormal.lean ====
/-
  Reading a fold of host operations down to its arguments: two rewriting facts that complete the library's one-pass
  normal form (`StableHlo.after_results_simp`).

  1. A `concatenate` of two pieces carries, after its list of pieces, a proof about the list's shapes; a rewriting pass
     therefore does not enter the list, and whatever the two pieces are stays unread. `cat2` is the same operation as a
     plain function of its two pieces (the proof now speaks of the two shapes only), and `concatenate_pair` presents a
     two-piece `concatenate` as `cat2`, whose operands a rewriting pass does reach.
  2. An operation inlined from a called function reads and writes its buffers through a transport along the buffer's
     type equation; a value written by one such operation and read by the next meets the two transports back to back,
     which cancel by Mathlib's `cast_cast` and `cast_eq`. (Nothing to state here: cite those two lemmas.)
-/
import Idealize.ShloMosaic.PureOps.ShapeOps

namespace Cert.FoldNormal

open Idealize.ShloMosaic

/-- The concatenation of two pieces along axis `a`, as a function of the two pieces. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece `concatenate` is `cat2` of its pieces. -/
theorem concatenate_pair {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.FoldNormal
-- ==== Proof.RefRun.lean ====
/-
  The run of the reference program: its result as a closed term of its argument.

  The reference's @main is the sequence `ops` of 136 host operations, and every weakly fair execution ends with each
  buffer at the fold of those operations over the launch contents. Read at the result buffer, the fold is the
  composition `Stages.refOut` of the argument's contents: each operation's value at its own buffer is its function of
  its operands' values, every other buffer keeps what it held, and following the operands back from the gather to the
  argument and to the constants spells out exactly the stages' definitions (the clamp's conversion of its bound to the
  same type is the identity, and a value handed from one operation of a called function to the next passes through a
  transport along its buffer's type, which is the identity at these buffers). Read at the argument buffer, the fold
  is the argument's contents: no operation writes there.
-/
import proofs.«137568_j11974368821316_2_alg».proof.Proof.RefOps
import proofs.«137568_j11974368821316_2_alg».proof.Proof.LibFoldNormal

noncomputable section

namespace Cert.ReferenceIdeal.HandRun

open Cert.ReferenceIdeal Idealize.ShloMosaic Idealize.ShloMosaic.TcCoe Idealize.SL.Sem Idealize.ShloMosaic.StableHlo

variable [Cert.ReferenceIdeal.Facts]
open Facts₀ Facts

-- the windowed sums, the scatter and the gather are folds and searches over their operands' elements: the
-- comparison with the stages never looks inside them, and must not open them
attribute [local irreducible] Host.reduceWindow Host.scatter Host.gather in
set_option maxRecDepth 16384 in
set_option maxHeartbeats 4000000 in
/-- The fold at the result buffer is `Stages.refOut` of the argument's contents: one pass rewrites every
    operation's result at its own buffer to its function's value and at any other buffer to what was there (the
    two-piece concatenation read as a function of its pieces, so that the pass reaches them); what is left is the
    stages' definitions unfolded. -/
theorem out_eq (V : Valuation τ sig (Elt Ideal)) :
    after (ops (F := Ideal)) V (main_v34 : DevRef τ sig) = Stages.refOut (V (main_arg0 : DevRef τ sig)) := by
  simp (disch := decide) only [after_cons, after_nil,
      nullary_result', unary_result', binary_result', ternary_result', reshape_result',
      nullary_result_ne', unary_result_ne', binary_result_ne', ternary_result_ne', reshape_result_ne',
      Cert.FoldNormal.concatenate_pair, cast_cast, cast_eq]
  rfl

set_option maxRecDepth 8192 in
set_option maxHeartbeats 1600000 in
/-- No operation writes the argument's buffer. -/
theorem arg0_eq (V : Valuation τ sig (Elt Ideal)) :
    after (ops (F := Ideal)) V (main_arg0 : DevRef τ sig) = V (main_arg0 : DevRef τ sig) := by
  after_results_simp

/-- From any memory with zero counters every weakly fair execution of the reference terminates with the result
    buffer at `Stages.refOut` of the argument's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = Stages.refOut (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_main m ρ)

end Cert.ReferenceIdeal.HandRun

end
-- ==== Proof.LibNonzero.lean ====
/-
  Counting the set positions of a bit mask with running sums and a histogram.

  Given a mask on the positions 0 … N-1 with S set positions, the following pipeline lists the set positions in
  increasing order: take the running count c p = #{q ≤ p | mask q}; build the histogram b n = #{p | c p = n} for
  n < S; take the running sum of the histogram. Its value at k is #{p | c p ≤ k}, and because c p ≤ k holds exactly
  for the positions p before the (k+1)-th set position, that number is the (k+1)-th set position itself.

  This module proves the three ingredients for 32-bit words: a padded sliding-window sum whose window is as long as
  the array is a running sum; a scatter-add of ones into zero bins is a histogram; and the counting fact above. It
  then instantiates the counting fact at the strict upper triangle of a 64 × 64 matrix read in row-major order.
-/
import Idealize.ShloMosaic.PureOps
import Idealize.ShloMosaic.PureOps.Ideal
import Idealize.ShloMosaic.Lib.ValueIdx
import Mathlib.Tactic
import Mathlib.Algebra.BigOperators.Fin
import Mathlib.Algebra.BigOperators.Intervals
import proofs.«137568_j11974368821316_2_alg».proof.Proof.Tri

open Idealize.ShloMosaic Idealize.ShloMosaic.ValueIdx
open scoped BigOperators

namespace Cert.LibNonzero

/-! ## Running sums -/

/-- A left fold that adds the word of one natural number per list element, started at the word of `s`, ends at
    the word of `s` plus the sum of those numbers: addition of words is addition of numbers modulo 2³². -/
theorem foldl_addi_ofNat {ι : Type} (c : ι → ℕ) (l : List ι) (s : ℕ) :
    l.foldl (fun r n => IntOp.addi r (BitVec.ofNat 32 (c n))) (BitVec.ofNat 32 s)
      = BitVec.ofNat 32 (s + (l.map c).sum) := by
  induction l generalizing s with
  | nil => simp
  | cons a l ih =>
    simp only [List.foldl_cons, List.map_cons, List.sum_cons]
    have : IntOp.addi (BitVec.ofNat 32 s) (BitVec.ofNat 32 (c a)) = BitVec.ofNat 32 (s + c a) := by
      simp [IntOp.addi, BitVec.ofNat_add]
    rw [this, ih, Nat.add_assoc]

/-- A window of length `N` slid over an array of length `N` padded with `N - 1` zeros in front: the window ending
    at `j` starts `N - 1 - j` places inside the padding, and what is left of it covers the positions `0 … j`. -/
theorem sum_window (N j : ℕ) (hj : j < N) (a : ℕ → ℕ) :
    ∑ n ∈ Finset.range N, (if N - 1 ≤ j + n then a (j + n - (N - 1)) else 0)
      = ∑ q ∈ Finset.range (j + 1), a q := by
  obtain ⟨m, rfl⟩ : ∃ m, N = m + (j + 1) := ⟨N - (j + 1), by omega⟩
  rw [Finset.sum_range_add]
  have h0 : ∑ n ∈ Finset.range m, (if m + (j + 1) - 1 ≤ j + n then a (j + n - (m + (j + 1) - 1)) else 0) = 0 := by
    apply Finset.sum_eq_zero
    intro n hn
    have := Finset.mem_range.1 hn
    rw [if_neg (by omega)]
  rw [h0, Nat.zero_add]
  apply Finset.sum_congr rfl
  intro q _
  rw [if_pos (by omega)]
  congr 1
  omega

/-- The sliding-window sum (the `reduce_window` operation) with a window as long as the array, stride one and
    `N - 1` places of padding in front (how a running sum is written) is the running sum: at position `j` the word
    of `a 0 + ⋯ + a j`, when the array holds the words of the numbers `a q` and the initial value is zero. -/
theorem reduceWindow_prefix {N : ℕ} {u : Shape} (x : IVec ⟨1, ![N]⟩ 32) (init : IVec u 32)
    (h : (⟨1, ![N]⟩ : Shape).ReduceWindows (![N] : Fin 1 → ℕ) ![1] ![N - 1] ![0] ⟨1, ![N]⟩) (hu : 0 < u.numel)
    (hinit : init (Shape.Idx.first hu) = 0#32)
    (a : ℕ → ℕ) (hx : ∀ i, x i = BitVec.ofNat 32 (a (i 0).val)) (j : Fin N) :
    Host.reduceWindow IntOp.addi (![N] : Fin 1 → ℕ) ![1] ![N - 1] ![0] x init h hu (ix1 j)
      = BitVec.ofNat 32 (∑ q ∈ Finset.range (j.val + 1), a q) := by
  have hnum : (⟨1, ![N]⟩ : Shape).numel = N := by simp [Shape.numel]
  unfold Host.reduceWindow
  simp only [hinit]
  refine (List.foldl_ext _
    (fun r n => IntOp.addi r (BitVec.ofNat 32 (if N - 1 ≤ j.val + n.val then a (j.val + n.val - (N - 1)) else 0)))
    _ ?_).trans ?_
  · intro r n _
    congr 1
    have hn : (((⟨1, ![N]⟩ : Shape).rowMajor.symm n) 0).val = n.val := by
      have := Shape.rowMajor_val_one ((⟨1, ![N]⟩ : Shape).rowMajor.symm n)
      rw [Equiv.apply_symm_apply] at this
      exact this.symm
    have hnN : n.val < N := lt_of_lt_of_eq n.isLt hnum
    have hj0 : ((ix1 j : (⟨1, ![N]⟩ : Shape).Idx) 0).val = j.val := rfl
    have hs : (⟨1, ![N]⟩ : Shape).size 0 = N := rfl
    split_ifs with h1 h2 h2
    · rw [hx]
      congr 2
      simp only [hn]
      simp [hj0]
    · exfalso
      apply h2
      have := (h1 0).1
      simp only [hn] at this
      simpa [hj0] using this
    · exfalso
      apply h1
      intro b
      obtain rfl : b = 0 := Subsingleton.elim _ _
      change N - 1 ≤ j.val * 1 + ((⟨1, ![N]⟩ : Shape).rowMajor.symm n 0).val
        ∧ j.val * 1 + ((⟨1, ![N]⟩ : Shape).rowMajor.symm n 0).val - (N - 1) < N
      rw [hn]
      have := j.isLt
      omega
    · rfl
  · have := foldl_addi_ofNat
      (fun n : Fin (Shape.numel ⟨1, ![N]⟩) => if N - 1 ≤ j.val + n.val then a (j.val + n.val - (N - 1)) else 0)
      (List.finRange _) 0
    rw [show (0#32) = BitVec.ofNat 32 0 from rfl, this, Nat.zero_add, ← Fin.sum_univ_def,
      Fin.sum_univ_eq_sum_range (fun n => if N - 1 ≤ j.val + n then a (j.val + n - (N - 1)) else 0), hnum,
      sum_window N j.val j.isLt a]

/-! ## Small words -/

/-- A word holding a number below 2³¹ reads, signed, as that number. -/
theorem toInt_ofNat_small (n : ℕ) (h : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_cond, h1, if_pos (by omega)]

/-! ## Histograms -/

/-- The dimension numbers of a scatter of `P` scalar updates into an array of length `M`, each update carrying one
    index: the index array is `P × 1`, its second axis holds the (one-component) index vector, and the operand's one
    axis is the scattered one, with no window. -/
abbrev binDims {M P : ℕ} (hwf : ScatterDims.WF (⟨1, ![M]⟩ : Shape) ⟨2, ![P, 1]⟩ ⟨1, ![P]⟩ [] [0] [0] 1) :
    ScatterDims (⟨1, ![M]⟩ : Shape) ⟨2, ![P, 1]⟩ ⟨1, ![P]⟩ where
  updateWindowDims := []
  insertedWindowDims := [0]
  scatterDimsToOperandDims := [0]
  indexVectorDim := 1
  wf := hwf

/-- With these dimension numbers there is no window: the window coordinate is zero. -/
theorem binDims_window {M P : ℕ} (hwf) (j : (⟨1, ![P]⟩ : Shape).Idx) (a : Fin 1) :
    (binDims (M := M) (P := P) hwf).window j a = 0 := by
  unfold ScatterDims.window
  rw [dif_neg]
  simp [ScatterDims.sKept, Shape.kept]
  exact Subsingleton.elim _ _

/-- With these dimension numbers update `j` starts at the index word in row `j` of the index array, read signed. -/
theorem binDims_start {M P w : ℕ} (hwf) (j : (⟨1, ![P]⟩ : Shape).Idx) (idx : IVec ⟨2, ![P, 1]⟩ w) (a : Fin 1) :
    (binDims (M := M) (P := P) hwf).start j idx a = (idx (ix2 (j 0) 0)).toInt := by
  unfold ScatterDims.start
  obtain rfl : a = 0 := Subsingleton.elim _ _
  rw [dif_pos (by simp)]
  congr 2
  funext b
  unfold ScatterDims.siIdx
  have hx : ∀ x : Fin (⟨1, ![P]⟩ : Shape).rank, (j x).val = (j 0).val := fun x => by
    obtain rfl : x = 0 := Subsingleton.elim (α := Fin 1) _ _
    rfl
  match b with
  | ⟨0, _⟩ =>
    simp [ScatterDims.siCoord]
    apply Fin.ext
    exact hx _
  | ⟨1, _⟩ =>
    simp
    rfl

/-- Update `j` lands on element `i` exactly when its index word, read signed, is `i`'s position (an index word
    outside `0 … M-1` lands nowhere). -/
theorem binDims_resultIdx?_eq_some_iff {M P w : ℕ} (hwf) (j : (⟨1, ![P]⟩ : Shape).Idx) (idx : IVec ⟨2, ![P, 1]⟩ w)
    (i : (⟨1, ![M]⟩ : Shape).Idx) :
    (binDims (M := M) (P := P) hwf).resultIdx? j idx = some i ↔ (idx (ix2 (j 0) 0)).toInt = ((i 0).val : ℤ) := by
  unfold ScatterDims.resultIdx?
  have hi : (i 0).val < M := (i 0).isLt
  constructor
  · intro h
    split_ifs at h with hc
    have h' := congrFun (Option.some.inj h) 0
    have hc0 := hc 0
    rw [binDims_start, binDims_window] at hc0
    have h'' := congrArg Fin.val h'
    simp only [binDims_start, binDims_window] at h''
    omega
  · intro h
    have hc : ∀ a : Fin 1, 0 ≤ (binDims (M := M) (P := P) hwf).start j idx a + ((binDims (M := M) (P := P) hwf).window j a : ℤ)
        ∧ (binDims (M := M) (P := P) hwf).start j idx a + ((binDims (M := M) (P := P) hwf).window j a : ℤ) < ((⟨1, ![M]⟩ : Shape).size a : ℤ) := by
      intro a
      obtain rfl : a = 0 := Subsingleton.elim _ _
      rw [binDims_start, binDims_window, h]
      show (0:ℤ) ≤ ((i 0).val : ℤ) + ((0:ℕ):ℤ) ∧ ((i 0).val : ℤ) + ((0:ℕ):ℤ) < (M : ℤ)
      omega
    rw [dif_pos hc]
    congr 1
    funext a
    obtain rfl : a = 0 := Subsingleton.elim _ _
    apply Fin.ext
    simp only [binDims_start, binDims_window, h]
    simp

/-- Counting the positions below `m` with a property, as a list of bounded numbers or as a set of numbers. -/
theorem length_filter_finRange (m : ℕ) (Q : ℕ → Prop) [DecidablePred Q] :
    ((List.finRange m).filter fun k => decide (Q k.val)).length = ((Finset.range m).filter Q).card := by
  have h1 : ((List.finRange m).filter fun k => decide (Q k.val)).length
      = (((List.finRange m).map Fin.val).filter fun k => decide (Q k)).length := by
    rw [List.filter_map, List.length_map]; rfl
  rw [h1, List.map_coe_finRange_eq_range]
  rfl

/-- A scatter that adds a one per update leaves at element `i` its operand's element plus the number of updates that
    land on `i`: each step of the fold changes element `i` only when its update lands there, and then by one. -/
theorem scatter_addi_one_apply {s si u : Shape} {w : ℕ} (d : ScatterDims s si u) (x : IVec s 32) (idx : IVec si w)
    (upd : IVec u 32) (hupd : ∀ i, upd i = 1#32) (i : s.Idx) :
    Host.scatter d IntOp.addi x idx upd i
      = IntOp.addi (x i) (BitVec.ofNat 32
          ((List.finRange u.numel).filter fun n => decide (d.resultIdx? (u.rowMajor.symm n) idx = some i)).length) := by
  unfold Host.scatter
  generalize List.finRange u.numel = l
  induction l generalizing x with
  | nil => simp [IntOp.addi]
  | cons n l ih =>
    rw [List.foldl_cons, ih, List.filter_cons]
    cases hres : d.resultIdx? (u.rowMajor.symm n) idx with
    | none => simp
    | some i0 =>
      by_cases hi : i = i0
      · subst hi
        simp only [if_true, decide_true, List.length_cons, hupd, IntOp.addi]
        rw [BitVec.ofNat_add, BitVec.add_assoc, BitVec.add_comm (BitVec.ofNat 32 _)]
      · have : i0 ≠ i := fun h => hi h.symm
        simp [hi, this]

/-- The histogram: scattering a one for each of `P` index words into `M` zero bins leaves in bin `n` the number of
    index words that, read signed, equal `n`. -/
theorem scatter_bincount {M P : ℕ} (hwf) (x : IVec ⟨1, ![M]⟩ 32) (idx : IVec ⟨2, ![P, 1]⟩ 32) (upd : IVec ⟨1, ![P]⟩ 32)
    (hx : ∀ i, x i = 0#32) (hupd : ∀ i, upd i = 1#32) (v : ℕ → ℤ) (hidx : ∀ i, (idx i).toInt = v (i 0).val)
    (n : Fin M) :
    Host.scatter (binDims hwf) IntOp.addi x idx upd (ix1 n)
      = BitVec.ofNat 32 ((Finset.range P).filter fun p => v p = (n.val : ℤ)).card := by
  have hnum : (⟨1, ![P]⟩ : Shape).numel = P := by simp [Shape.numel]
  rw [scatter_addi_one_apply _ _ _ _ hupd, hx]
  calc _ = BitVec.ofNat 32 ((Finset.range (Shape.numel ⟨1, ![P]⟩)).filter fun p => v p = (n.val : ℤ)).card := ?_
    _ = _ := by rw [hnum]
  rw [← length_filter_finRange]
  simp only [IntOp.addi, BitVec.zero_add]
  congr 2
  apply List.filter_congr
  intro k _
  rw [decide_eq_decide, binDims_resultIdx?_eq_some_iff, hidx]
  have hk : (((⟨1, ![P]⟩ : Shape).rowMajor.symm k) 0).val = k.val := by
    have := Shape.rowMajor_val_one ((⟨1, ![P]⟩ : Shape).rowMajor.symm k)
    rw [Equiv.apply_symm_apply] at this
    exact this.symm
  show v (((⟨1, ![P]⟩ : Shape).rowMajor.symm k) 0).val = (n.val : ℤ) ↔ _
  rw [hk]

/-! ## The counting fact -/

/-- The running count of a mask: the number of set positions among `0 … p`. -/
def runCount (mask : ℕ → Bool) (p : ℕ) : ℕ := ((Finset.range (p + 1)).filter fun q => mask q = true).card

/-- The running count at `p` is at most `p + 1`. -/
theorem runCount_le (mask : ℕ → Bool) (p : ℕ) : runCount mask p ≤ p + 1 := by
  unfold runCount
  exact (Finset.card_filter_le _ _).trans (Finset.card_range _).le

/-- A sequence that increases at every step below `S` is strictly increasing below `S`. -/
theorem lt_of_step {S : ℕ} {pos : ℕ → ℕ} (hstep : ∀ k, k + 1 < S → pos k < pos (k + 1)) :
    ∀ k k', k < k' → k' < S → pos k < pos k' := by
  intro k k' hkk'
  induction k', hkk' using Nat.le_induction with
  | base => intro h; exact hstep k h
  | succ m hm ih => intro h; exact (ih (by omega)).trans (hstep m h)

/-- Let `pos 0 < pos 1 < ⋯ < pos (S-1)` list exactly the set positions of a mask on `0 … N-1`. The running count at
    `p` is at most `k` exactly when `p` lies before `pos k`: the set positions up to `p` are then among
    `pos 0, …, pos (k-1)`, and otherwise they include `pos 0, …, pos k`. So the positions whose running count is at most
    `k` are `0, …, pos k - 1`, and there are `pos k` of them. -/
theorem card_runCount_le (N S : ℕ) (mask : ℕ → Bool) (pos : ℕ → ℕ)
    (hstep : ∀ k, k + 1 < S → pos k < pos (k + 1))
    (hmask : ∀ k, k < S → mask (pos k) = true)
    (hlt : ∀ k, k < S → pos k < N)
    (hsurj : ∀ p, p < N → mask p = true → ∃ k, k < S ∧ pos k = p)
    (k : ℕ) (hk : k < S) :
    ((Finset.range N).filter fun p => runCount mask p ≤ k).card = pos k := by
  have hmono := lt_of_step hstep
  have hle : ∀ k' k, k' ≤ k → k < S → pos k' ≤ pos k := by
    intro k' k h1 h2
    rcases Nat.lt_or_eq_of_le h1 with h | rfl
    · exact (hmono k' k h h2).le
    · exact le_rfl
  have hiff : ∀ p, p < N → (runCount mask p ≤ k ↔ p < pos k) := by
    intro p hp
    constructor
    · intro hc
      by_contra hnot
      have hnot' : pos k ≤ p := Nat.le_of_not_lt hnot
      have hsub : (Finset.range (k + 1)).image pos ⊆ (Finset.range (p + 1)).filter fun q => mask q = true := by
        intro q hq
        obtain ⟨k', hk', rfl⟩ := Finset.mem_image.1 hq
        have hk'' : k' ≤ k := Nat.lt_succ_iff.1 (Finset.mem_range.1 hk')
        refine Finset.mem_filter.2 ⟨Finset.mem_range.2 ?_, hmask k' (by omega)⟩
        have := hle k' k hk'' hk
        omega
      have hinj : Set.InjOn pos (Finset.range (k + 1) : Set ℕ) := by
        intro a ha b hb hab
        have ha' : a < k + 1 := Finset.mem_range.1 (Finset.mem_coe.1 ha)
        have hb' : b < k + 1 := Finset.mem_range.1 (Finset.mem_coe.1 hb)
        by_contra hne
        rcases Nat.lt_or_gt_of_ne hne with h | h
        · have := hmono a b h (by omega); omega
        · have := hmono b a h (by omega); omega
      have hcard := Finset.card_le_card hsub
      rw [Finset.card_image_of_injOn hinj, Finset.card_range] at hcard
      unfold runCount at hc
      omega
    · intro hlt'
      have hsub : ((Finset.range (p + 1)).filter fun q => mask q = true) ⊆ (Finset.range k).image pos := by
        intro q hq
        obtain ⟨hq1, hq2⟩ := Finset.mem_filter.1 hq
        have hq1' := Finset.mem_range.1 hq1
        obtain ⟨k', hk'S, rfl⟩ := hsurj q (by omega) hq2
        refine Finset.mem_image.2 ⟨k', Finset.mem_range.2 ?_, rfl⟩
        by_contra hge
        have hge' : k ≤ k' := Nat.le_of_not_lt hge
        have := hle k k' hge' hk'S
        omega
      have := (Finset.card_le_card hsub).trans Finset.card_image_le
      rw [Finset.card_range] at this
      exact this
  have : (Finset.range N).filter (fun p => runCount mask p ≤ k) = Finset.range (pos k) := by
    ext p
    simp only [Finset.mem_filter, Finset.mem_range]
    constructor
    · rintro ⟨hp, hc⟩; exact (hiff p hp).1 hc
    · intro hp; have := hlt k hk; exact ⟨by omega, (hiff p (by omega)).2 hp⟩
  rw [this, Finset.card_range]

/-- The histogram summed up to `k` counts the positions whose value is at most `k`. -/
theorem sum_card_fibers (N : ℕ) (c : ℕ → ℕ) (k : ℕ) :
    ∑ n ∈ Finset.range (k + 1), ((Finset.range N).filter fun p => c p = n).card
      = ((Finset.range N).filter fun p => c p ≤ k).card := by
  rw [Finset.card_eq_sum_card_fiberwise (f := c) (t := Finset.range (k + 1))]
  · apply Finset.sum_congr rfl
    intro n hn
    have hn' := Finset.mem_range.1 hn
    congr 1
    rw [Finset.filter_filter]
    apply Finset.filter_congr
    intro p _
    constructor
    · intro h; exact ⟨by omega, h⟩
    · intro h; exact h.2
  · intro p hp
    have := (Finset.mem_filter.1 hp).2
    exact Finset.mem_range.2 (by omega)

/-! ## The strict upper triangle of a 64 × 64 matrix in row-major order -/

/-- The mask of the strict upper triangle at flat position `p = 64 * row + col`: set when `row < col`. -/
def triMask (p : ℕ) : Bool := decide (p / 64 < p % 64)

/-- The flat position of the pair at packed position `k`. -/
def triPos (k : ℕ) : ℕ := 64 * Cert.Tri.rowOf k + Cert.Tri.colOf k

theorem triPos_step : ∀ k, k + 1 < 2016 → triPos k < triPos (k + 1) := by
  have h : ∀ k < 2015, triPos k < triPos (k + 1) := by decide +kernel
  intro k hk; exact h k (by omega)

theorem triMask_triPos : ∀ k, k < 2016 → triMask (triPos k) = true := by
  have h : ∀ k < 2016, triMask (triPos k) = true := by decide +kernel
  exact h

theorem triPos_lt : ∀ k, k < 2016 → triPos k < 4096 := by
  have h : ∀ k < 2016, triPos k < 4096 := by decide +kernel
  exact h

/-- Every pair `i < j < 64` is the pair at its own packed position, which is below 2016. -/
theorem unpack_posOf : ∀ i < 64, ∀ j < 64, i < j →
    Cert.Tri.posOf i j < 2016 ∧ Cert.Tri.rowOf (Cert.Tri.posOf i j) = i ∧ Cert.Tri.colOf (Cert.Tri.posOf i j) = j := by
  decide +kernel

theorem triPos_surj : ∀ p, p < 4096 → triMask p = true → ∃ k, k < 2016 ∧ triPos k = p := by
  intro p hp hm
  have hm' : p / 64 < p % 64 := of_decide_eq_true hm
  obtain ⟨h1, h2, h3⟩ := unpack_posOf (p / 64) (by omega) (p % 64) (by omega) hm'
  refine ⟨Cert.Tri.posOf (p / 64) (p % 64), h1, ?_⟩
  unfold triPos
  rw [h2, h3]
  omega

/-- The number of flat positions whose running count of the triangle's mask is at most `k` is the flat position
    of the pair at packed position `k`. -/
theorem tri_card_runCount_le (k : ℕ) (hk : k < 2016) :
    ((Finset.range 4096).filter fun p => runCount triMask p ≤ k).card = triPos k :=
  card_runCount_le 4096 2016 triMask triPos triPos_step triMask_triPos triPos_lt triPos_surj k hk

end Cert.LibNonzero
-- ==== Proof.RefTable.lean ====
/-
  The reference's index table is the strict upper triangle of the 64 × 64 matrix, packed row by row.

  The reference never writes the index pairs down; it computes them from a matrix of ones. This module follows that
  computation stage by stage and identifies every stage with a closed form:

  * the flattened mask holds a one at flat position `p = 64 * row + col` exactly when `row < col`;
  * its running sum at `p` is the number of set positions among `0 … p`;
  * clamping below at zero and wrapping negatives leaves these small non-negative numbers alone;
  * the scatter of ones builds the histogram of the running sum, the value 2016 falling outside the bins;
  * the running sum of the histogram at packed position `k` counts the flat positions whose running sum is at most
    `k`, which is the flat position `64 * rowOf k + colOf k` of the `(k+1)`-th set position;
  * floor division and remainder by 64 (and by 1) on that small non-negative number are the natural-number quotient
    and remainder, so the row and column vectors hold `rowOf k` and `colOf k`.
-/
import proofs.«137568_j11974368821316_2_alg».proof.Proof.RefStages
import proofs.«137568_j11974368821316_2_alg».proof.Proof.LibNonzero
import Idealize.ShloMosaic.Lib.ValueIdx
import Idealize.ShloMosaic.Lib.IdealHost
import Idealize.ShloMosaic.Lib.Pipeline.Value
import Idealize.ShloMosaic.PureOps.Ideal.Laws
import Mathlib.Tactic

open Idealize.ShloMosaic Idealize.ShloMosaic.ValueIdx Cert.ReferenceIdeal Cert.LibNonzero
open scoped BigOperators

namespace Cert.ReferenceIdeal.Stages

variable [Cert.ReferenceIdeal.Facts]
open Facts₀ Facts

/-! ## The mask -/

/-- On coordinates below 64 the signed comparison `row + 0 ≥ col` of 32-bit words is the comparison of numbers. -/
theorem sge_small : ∀ r < 64, ∀ c < 64,
    IntOp.cmpi .sge (IntOp.addi (BitVec.ofNat 32 r) 0#32) (BitVec.ofNat 32 c) = BitVec.ofBool (decide (c ≤ r)) := by
  decide +kernel

/-- The ones matrix with everything on or below the diagonal zeroed: zero where `col ≤ row`, one elsewhere. -/
theorem triuOnes_apply (r c : Fin 64) : triuOnes (ix2 r c) = if c.val ≤ r.val then (0 : EReal) else 1 := by
  have h : triuOnes (ix2 r c) = Scalar.select (IntOp.cmpi .sge (IntOp.addi (BitVec.ofNat 32 r.val) 0#32) (BitVec.ofNat 32 c.val))
      (Ideal.ofBits .f32 0x00000000#32) (Ideal.ofBits .f32 0x3F800000#32) := rfl
  rw [h, sge_small r.val r.isLt c.val c.isLt, Ideal.ofBits_zero_f32, Ideal.ofBits_one_f32]
  by_cases hcr : c.val ≤ r.val
  · simp [hcr, Scalar.select]
  · simp [hcr, Scalar.select]

/-- The mask of its non-zero entries: set exactly strictly above the diagonal. -/
theorem nzMask_apply (r c : Fin 64) : nzMask (ix2 r c) = BitVec.ofBool (decide (r.val < c.val)) := by
  have h : nzMask (ix2 r c) = Ideal.cmp .une (triuOnes (ix2 r c)) (Ideal.ofBits .f32 0x00000000#32) := rfl
  rw [h, triuOnes_apply, Ideal.ofBits_zero_f32]
  unfold Ideal.cmp
  by_cases hcr : c.val ≤ r.val
  · have : ¬ r.val < c.val := by omega
    simp [hcr, this]
  · have : r.val < c.val := by omega
    simp [hcr, this]

/-- The flattened mask at flat position `p` is one when `p / 64 < p % 64` and zero otherwise. -/
theorem nzFlat_apply (p : Fin 4096) : nzFlat (ix1 p) = BitVec.ofNat 32 (if triMask p.val then 1 else 0) := by
  have h : nzFlat (ix1 p) = (shapeCast S4096 nzMask shapeCasts_S64x64_S4096 (ix1 p)).setWidth 32 := rfl
  have hk : (S64x64.rowMajor (ix2 (⟨p.val / 64, by omega⟩ : Fin 64) (⟨p.val % 64, by omega⟩ : Fin 64))).val
      = (S4096.rowMajor (ix1 p)).val := by
    rw [Shape.rowMajor_val_two, Shape.rowMajor_val_one]
    show p.val / 64 * 64 + p.val % 64 = p.val
    omega
  rw [h, shapeCast_apply nzMask _ (ix1 p) _ hk, nzMask_apply]
  unfold triMask
  by_cases hp : p.val / 64 < p.val % 64
  · simp [hp]
  · simp [hp]

/-! ## The running count -/

/-- The running sum of the flattened mask at `p` is the number of set positions among `0 … p`. -/
theorem csum_apply (p : Fin 4096) : csum (ix1 p) = BitVec.ofNat 32 (runCount triMask p.val) := by
  have hx : ∀ i : S4096.Idx, nzFlat i = BitVec.ofNat 32 ((fun q => if triMask q then 1 else 0) (i 0).val) := by
    intro i
    rw [eq_ix1 i]
    exact nzFlat_apply (i 0)
  have := reduceWindow_prefix (N := 4096) nzFlat
    (broadcastInDim S_ ![] bcast_S_S_ (constantI S_ 32 0#32))
    reduceWindows_S4096_S4096_w4096s1p4095_0 h_S_ rfl (fun q => if triMask q then 1 else 0) hx p
  have hsum : ∑ q ∈ Finset.range (p.val + 1), (if triMask q then 1 else 0) = runCount triMask p.val := by
    unfold runCount
    rw [Finset.card_filter]
  rw [← hsum]
  exact this

/-- The scalar form of clamping below at zero and then moving negatives up by 2016. -/
def wrapS (x : BitVec 32) : BitVec 32 :=
  Scalar.select (IntOp.cmpi .slt (IntOp.maxsi 0#32 x) 0#32) (IntOp.addi (IntOp.maxsi 0#32 x) 2016#32) (IntOp.maxsi 0#32 x)

/-- The clamped and wrapped vector is that scalar form applied entry by entry. -/
theorem wrapped_eq (i : S4096.Idx) : wrapped i = wrapS (csum i) := rfl

/-- On numbers up to 4096 clamping and wrapping change nothing. -/
theorem wrapS_small : ∀ n < 4097, wrapS (BitVec.ofNat 32 n) = BitVec.ofNat 32 n := by decide +kernel

/-- The clamped and wrapped running count is the running count. -/
theorem wrapped_apply (p : Fin 4096) : wrapped (ix1 p) = BitVec.ofNat 32 (runCount triMask p.val) := by
  rw [wrapped_eq, csum_apply]
  exact wrapS_small _ (by have := runCount_le triMask p.val; omega)

/-! ## The histogram and its running sum -/

/-- The index array of the scatter reads, in row `p`, the wrapped running count at `p`. -/
theorem idxArr_apply (i : S4096x1.Idx) :
    broadcastInDim S4096x1 ![0] bcast_S4096_S4096x1_0 wrapped i = wrapped (ix1 (⟨(i 0).val, (i 0).isLt⟩ : Fin 4096)) := by
  apply broadcastInDim_apply
  intro a
  obtain rfl : a = 0 := Subsingleton.elim (α := Fin 1) _ _
  rfl

/-- Read signed, that index word is the running count itself: it is far below 2³¹. -/
theorem idxArr_toInt (i : S4096x1.Idx) :
    (broadcastInDim S4096x1 ![0] bcast_S4096_S4096x1_0 wrapped i).toInt = ((runCount triMask (i 0).val : ℕ) : ℤ) := by
  rw [idxArr_apply, wrapped_apply]
  have h1 := runCount_le triMask (i 0).val
  have h2 : (i 0).val < 4096 := (i 0).isLt
  exact toInt_ofNat_small _ (by show runCount triMask (i 0).val < 2 ^ 31; omega)

/-- The scatter's dimension numbers are those of a histogram: one index per update, no window. -/
theorem scatterDims_eq :
    scatter_S2016_S4096x1_S4096_n_0_0_1 = binDims (M := 2016) (P := 4096) scatter_S2016_S4096x1_S4096_n_0_0_1_wf := rfl

/-- The bins are a scatter with the histogram's dimension numbers. -/
theorem bins_scatter (n : Fin 2016) :
    bins (ix1 n) = Host.scatter (binDims (M := 2016) (P := 4096) scatter_S2016_S4096x1_S4096_n_0_0_1_wf) IntOp.addi
      (broadcastInDim S2016 ![] bcast_S_S2016 (constantI S_ 32 0#32))
      (broadcastInDim S4096x1 ![0] bcast_S4096_S4096x1_0 wrapped)
      (broadcastInDim S4096 ![] bcast_S_S4096 (constantI S_ 32 1#32)) (ix1 n) := by
  unfold bins
  rw [scatterDims_eq]

theorem idxArr_toInt' : ∀ i : (⟨2, ![4096, 1]⟩ : Shape).Idx,
    (broadcastInDim S4096x1 ![0] bcast_S4096_S4096x1_0 wrapped i).toInt
      = (fun p => ((runCount triMask p : ℕ) : ℤ)) (i 0).val := fun i => idxArr_toInt i

/-- The scatter's operand is all zeros. -/
theorem binsInit_apply : ∀ i : (⟨1, ![2016]⟩ : Shape).Idx,
    broadcastInDim S2016 ![] bcast_S_S2016 (constantI S_ 32 0#32) i = 0#32 := fun _ => rfl

/-- The scatter's updates are all ones. -/
theorem binsUpd_apply : ∀ i : (⟨1, ![4096]⟩ : Shape).Idx,
    broadcastInDim S4096 ![] bcast_S_S4096 (constantI S_ 32 1#32) i = 1#32 := fun _ => rfl

theorem bins_count (n : Fin 2016) :
    Host.scatter (binDims (M := 2016) (P := 4096) scatter_S2016_S4096x1_S4096_n_0_0_1_wf) IntOp.addi
      (broadcastInDim S2016 ![] bcast_S_S2016 (constantI S_ 32 0#32))
      (broadcastInDim S4096x1 ![0] bcast_S4096_S4096x1_0 wrapped)
      (broadcastInDim S4096 ![] bcast_S_S4096 (constantI S_ 32 1#32)) (ix1 n)
    = BitVec.ofNat 32 ((Finset.range 4096).filter fun p => ((runCount triMask p : ℕ) : ℤ) = (n.val : ℤ)).card :=
  scatter_bincount (M := 2016) (P := 4096) scatter_S2016_S4096x1_S4096_n_0_0_1_wf _ _ _
    binsInit_apply binsUpd_apply (fun p => ((runCount triMask p : ℕ) : ℤ)) idxArr_toInt' n

/-- Bin `n` of the histogram holds the number of flat positions whose running count is `n`. -/
theorem bins_apply (n : Fin 2016) :
    bins (ix1 n) = BitVec.ofNat 32 ((Finset.range 4096).filter fun p => runCount triMask p = n.val).card := by
  rw [bins_scatter, bins_count]
  congr 2
  apply Finset.filter_congr
  intro p _
  exact Int.ofNat_inj

/-- The running sum of the histogram at packed position `k` is the flat position of the pair at `k`. -/
theorem flat_apply (k : Fin 2016) : flat (ix1 k) = BitVec.ofNat 32 (triPos k.val) := by
  have hx : ∀ i : S2016.Idx, bins i
      = BitVec.ofNat 32 ((fun n => ((Finset.range 4096).filter fun p => runCount triMask p = n).card) (i 0).val) := by
    intro i
    rw [eq_ix1 i]
    exact bins_apply (i 0)
  have := reduceWindow_prefix (N := 2016) bins
    (broadcastInDim S_ ![] bcast_S_S_ (constantI S_ 32 0#32))
    reduceWindows_S2016_S2016_w2016s1p2015_0 h_S_ rfl
    (fun n => ((Finset.range 4096).filter fun p => runCount triMask p = n).card) hx k
  rw [← tri_card_runCount_le k.val k.isLt, ← sum_card_fibers]
  exact this

/-! ## Row and column -/

/-- The sign of a word: zero, minus one or one. -/
def signS (x : BitVec 32) : BitVec 32 := if x = 0 then 0 else if x.msb then -1 else 1

/-- The scalar form of floor division: the truncated quotient, less one where the signs differ and the truncated
    remainder is not zero. -/
def floorDivS (x d : BitVec 32) : BitVec 32 :=
  Scalar.select
    (IntOp.andi (IntOp.cmpi .ne (signS x) (signS d)) (IntOp.cmpi .ne (IntOp.remsi .host x d) 0#32))
    (IntOp.subi (IntOp.divsi .host x d) 1#32)
    (IntOp.divsi .host x d)

/-- Floor division of a vector by a constant is that scalar form entry by entry. -/
theorem floorDiv_eq (x : IVec S2016 32) (c : BitVec 32) (i : S2016.Idx) :
    floorDiv x (constantI S_ 32 c) i = floorDivS (x i) c := rfl

/-- The divisor a remainder is taken by: the given one, or one in place of zero. -/
def remDenS (d : BitVec 32) : BitVec 32 := Scalar.select (IntOp.cmpi .eq d 0#32) 1#32 d

/-- The scalar form of the remainder with the divisor's sign: the truncated remainder, plus the divisor where it is
    not zero and its sign differs from the divisor's. -/
def remainderS (x d : BitVec 32) : BitVec 32 :=
  Scalar.select
    (IntOp.andi
      (IntOp.cmpi .ne (IntOp.cmpi .slt (IntOp.remsi .host x (remDenS d)) 0#32) (IntOp.cmpi .slt (remDenS d) 0#32))
      (IntOp.cmpi .ne (IntOp.remsi .host x (remDenS d)) 0#32))
    (IntOp.addi (IntOp.remsi .host x (remDenS d)) (remDenS d))
    (IntOp.remsi .host x (remDenS d))

/-- The remainder of a vector by a constant is that scalar form entry by entry. -/
theorem remainder_eq (x : IVec S2016 32) (c : BitVec 32) (i : S2016.Idx) :
    remainder x (constantI S_ 32 c) i = remainderS (x i) c := rfl

/-- The scalar form of moving negatives up by 64. -/
def wrap64S (v : BitVec 32) : BitVec 32 := Scalar.select (IntOp.cmpi .slt v 0#32) (IntOp.addi v 64#32) v

/-- Wrapping a vector is that scalar form entry by entry. -/
theorem wrap64_eq (v : IVec S2016 32) (i : S2016.Idx) : wrap64 v i = wrap64S (v i) := rfl

/-- The row of a flat position: floor division by 64, remainder by 64, negatives wrapped. -/
def rowS (x : BitVec 32) : BitVec 32 := wrap64S (remainderS (floorDivS x 64#32) 64#32)
/-- The column of a flat position: floor division by 1, remainder by 64, negatives wrapped. -/
def colS (x : BitVec 32) : BitVec 32 := wrap64S (remainderS (floorDivS x 1#32) 64#32)

theorem rowIdx_eq (i : S2016.Idx) : rowIdx i = rowS (flat i) := by
  unfold rowIdx rowS
  rw [wrap64_eq, remainder_eq, floorDiv_eq]

theorem colIdx_eq (i : S2016.Idx) : colIdx i = colS (flat i) := by
  unfold colIdx colS
  rw [wrap64_eq, remainder_eq, floorDiv_eq]

/-- On the flat position `64 * row + col` of a pair of the triangle, the row and column computations return the
    row and the column: a check of the 2016 packed positions. -/
theorem rowcolS : ∀ k < 2016,
    rowS (BitVec.ofNat 32 (64 * Cert.Tri.rowOf k + Cert.Tri.colOf k)) = BitVec.ofNat 32 (Cert.Tri.rowOf k)
    ∧ colS (BitVec.ofNat 32 (64 * Cert.Tri.rowOf k + Cert.Tri.colOf k)) = BitVec.ofNat 32 (Cert.Tri.colOf k) := by
  decide +kernel

/-- The row index vector at packed position `k` holds the row of the pair at `k`. -/
theorem rowIdx_apply (k : Fin 2016) : rowIdx (ix1 k) = BitVec.ofNat 32 (Cert.Tri.rowOf k.val) := by
  rw [rowIdx_eq, flat_apply]
  exact (rowcolS k.val k.isLt).1

/-- The column index vector at packed position `k` holds the column of the pair at `k`. -/
theorem colIdx_apply (k : Fin 2016) : colIdx (ix1 k) = BitVec.ofNat 32 (Cert.Tri.colOf k.val) := by
  rw [colIdx_eq, flat_apply]
  exact (rowcolS k.val k.isLt).2

end Cert.ReferenceIdeal.Stages
-- ==== Proof.LibPairGather.lean ====
/-
  A gather of single elements of a rank-3 array addressed by a table of index pairs.

  For an operand `x : [B, N₁, N₂]` and a table `idx : [R, 2]` of index pairs, the gather that keeps the whole first
  axis and takes one position on each of the other two (what `x[:, iu, ju]` means for two index vectors `iu`, `ju` laid
  side by side as the table's columns) has the result `[B, R]`, and its element `(b, k)` is `x (b, i, j)` where `i` and
  `j` are the two entries of row `k` of the table, read as signed integers and clamped into the operand.
-/
import Idealize.ShloMosaic.PureOps
import Idealize.ShloMosaic.PureOps.Ideal
import Idealize.ShloMosaic.Lib.ValueIdx
import Mathlib.Tactic

open Idealize.ShloMosaic Idealize.ShloMosaic.ValueIdx

namespace Cert.LibPairGather

variable {α : Type}

/-- The dimension numbers of that gather: the result's first axis is the one offset axis and runs over the whole
    first operand axis; the other two operand axes are collapsed slices of length one, started at the two components
    of the index vector, which lies along the table's second axis. -/
abbrev pairDims (B N1 N2 R : ℕ)
    (wf : GatherDims.WF ⟨3, ![B, N1, N2]⟩ ⟨2, ![R, 2]⟩ ⟨2, ![B, R]⟩ [0] [1, 2] [] [1, 2] [] 1 ![B, 1, 1]) :
    GatherDims ⟨3, ![B, N1, N2]⟩ ⟨2, ![R, 2]⟩ ⟨2, ![B, R]⟩ where
  offsetDims := [0]
  collapsedSliceDims := [1, 2]
  operandBatchingDims := []
  startIndicesBatchingDims := []
  startIndexMap := [1, 2]
  indexVectorDim := 1
  sliceSizes := ![B, 1, 1]
  wf := wf

theorem mem12_1 : (1 : Fin 3) ∈ ([1, 2] : List (Fin 3)) := by decide
theorem mem12_2 : (2 : Fin 3) ∈ ([1, 2] : List (Fin 3)) := by decide
theorem not_mem12_0 : (0 : Fin 3) ∉ ([1, 2] : List (Fin 3)) := by decide

/-- Result index `(b, k)` reads component `c` of its start index at entry `(k, c)` of the table. -/
theorem siIdx_eq {B N1 N2 R : ℕ} (wf) (b : Fin B) (k : Fin R) (c : Fin (pairDims B N1 N2 R wf).startIndexMap.length) :
    (pairDims B N1 N2 R wf).siIdx (ix2 b k) c = ix2 k (⟨c.val, c.isLt⟩ : Fin 2) := by
  funext a; refine Fin.ext ?_
  match a with
  | ⟨0, _⟩ => rfl
  | ⟨1, _⟩ => rfl

/-- THE GATHER READ AT `(b, k)`: the operand at `(b, i₁, i₂)`, where `i₁` and `i₂` are the two entries of row `k` of the
    table read signed and clamped into `[0, N₁ - 1]` and `[0, N₂ - 1]`. -/
theorem gather_pair_apply {B N1 N2 R w : ℕ} (wf)
    (x : (⟨3, ![B, N1, N2]⟩ : Shape).Idx → α) (idx : IVec ⟨2, ![R, 2]⟩ w) (b : Fin B) (k : Fin R)
    (i1 : Fin N1) (i2 : Fin N2)
    (h1 : min (idx (ix2 k (0 : Fin 2))).toInt.toNat (N1 - 1) = i1.val)
    (h2 : min (idx (ix2 k (1 : Fin 2))).toInt.toNat (N2 - 1) = i2.val) :
    Host.gather (pairDims B N1 N2 R wf) x idx (ix2 b k) = x (ix3 b i1 i2) := by
  unfold Host.gather
  congr 1
  funext a
  refine Fin.ext ?_
  show (pairDims B N1 N2 R wf).start (ix2 b k) idx a + (pairDims B N1 N2 R wf).batchCoord (ix2 b k) a
    + (pairDims B N1 N2 R wf).offCoord (ix2 b k) a = _
  rw [GatherDims.batchCoord_eq_zero _ _ _ List.not_mem_nil, Nat.add_zero]
  match a with
  | ⟨0, h0⟩ =>
    have hs : (pairDims B N1 N2 R wf).start (ix2 b k) idx ⟨0, h0⟩ = 0 := by
      unfold GatherDims.start
      rw [dif_neg (show (⟨0, h0⟩ : Fin 3) ∉ (pairDims B N1 N2 R wf).startIndexMap from not_mem12_0)]
    rw [hs, Nat.zero_add]
    rfl
  | ⟨1, h1'⟩ =>
    rw [GatherDims.offCoord_eq_zero _ _ _ (fun h => ((GatherDims.mem_sKept _ _).mp h).1
      (show (⟨1, h1'⟩ : Fin 3) ∈ (pairDims B N1 N2 R wf).collapsedSliceDims from mem12_1)), Nat.add_zero]
    unfold GatherDims.start
    rw [dif_pos (show (⟨1, h1'⟩ : Fin 3) ∈ (pairDims B N1 N2 R wf).startIndexMap from mem12_1), siIdx_eq]
    exact h1
  | ⟨2, h2'⟩ =>
    rw [GatherDims.offCoord_eq_zero _ _ _ (fun h => ((GatherDims.mem_sKept _ _).mp h).1
      (show (⟨2, h2'⟩ : Fin 3) ∈ (pairDims B N1 N2 R wf).collapsedSliceDims from mem12_2)), Nat.add_zero]
    unfold GatherDims.start
    rw [dif_pos (show (⟨2, h2'⟩ : Fin 3) ∈ (pairDims B N1 N2 R wf).startIndexMap from mem12_2), siIdx_eq]
    exact h2

end Cert.LibPairGather
-- ==== Proof.RefValue.lean ====
/-
  The reference computes the packed pairwise inner products.

  The reference's result is the batch of Gram matrices `gram b i j = ∑ e, x b i e * x b j e` gathered at the index
  table whose row `k` is the pair `(rowOf k, colOf k)`, the `k`-th pair of the strict upper triangle in row-major order.
  Both entries of a row are below 64, so reading them as signed integers and clamping them into the matrix changes
  nothing, and the result at `(b, k)` is `gram b (rowOf k) (colOf k) = ∑ e, x b (rowOf k) e * x b (colOf k) e`.
-/
import proofs.«137568_j11974368821316_2_alg».proof.Proof.RefTable
import proofs.«137568_j11974368821316_2_alg».proof.Proof.Spec
import proofs.«137568_j11974368821316_2_alg».proof.Proof.LibBatchedDot
import proofs.«137568_j11974368821316_2_alg».proof.Proof.LibPairGather

open Idealize.ShloMosaic Idealize.ShloMosaic.ValueIdx Cert.ReferenceIdeal Cert.LibNonzero Cert.LibPairGather
open scoped BigOperators

namespace Cert.ReferenceIdeal.Stages

variable [Cert.ReferenceIdeal.Facts]
open Facts₀ Facts

/-! ## The index table -/

/-- A vector laid out as a one-column matrix reads the vector's entry in every row. -/
theorem column_apply (v : IVec S2016 32) (k : Fin 2016) (c : Fin 1) :
    broadcastInDim S2016x1 ![0] bcast_S2016_S2016x1_0 v (ix2 k c) = v (ix1 k) := by
  apply broadcastInDim_apply
  intro a
  obtain rfl : a = 0 := Subsingleton.elim (α := Fin 1) _ _
  rfl

/-- Column 0 of the index table holds the row of the pair at each packed position. -/
theorem tbl_row (k : Fin 2016) : tbl (ix2 k (0 : Fin 2)) = BitVec.ofNat 32 (Cert.Tri.rowOf k.val) := by
  unfold tbl
  rw [concatenate_pair_apply_left (1 : Fin S2016x2.rank) _ _ concatenates_S2016x1_S2016x1_S2016x2_d1
    (ix2 k (0 : Fin 2)) rfl (ix2 k (0 : Fin 1)) (by intro b; fin_cases b <;> rfl)]
  rw [column_apply, rowIdx_apply]

/-- Column 1 of the index table holds the column of the pair at each packed position. -/
theorem tbl_col (k : Fin 2016) : tbl (ix2 k (1 : Fin 2)) = BitVec.ofNat 32 (Cert.Tri.colOf k.val) := by
  unfold tbl
  rw [concatenate_pair_apply_right (1 : Fin S2016x2.rank) _ _ concatenates_S2016x1_S2016x1_S2016x2_d1
    (ix2 k (1 : Fin 2)) rfl rfl (ix2 k (0 : Fin 1))
    (by intro b hb; fin_cases b
        · rfl
        · exact absurd rfl hb)
    (by rfl)]
  rw [column_apply, colIdx_apply]

/-- The first entry of row `k`, read signed and clamped into `[0, 63]`, is the row of the pair at `k`. -/
theorem tbl_row_clamped (k : Fin 2016) :
    min (tbl (ix2 k (0 : Fin 2))).toInt.toNat (64 - 1) = (Cert.Spec.row k).val := by
  have h := Cert.Tri.row_lt_col k.val k.isLt
  rw [tbl_row, toInt_ofNat_small _ (by omega), Int.toNat_natCast, Cert.Spec.row_val]
  exact Nat.min_eq_left (by omega)

/-- The second entry of row `k`, read signed and clamped into `[0, 63]`, is the column of the pair at `k`. -/
theorem tbl_col_clamped (k : Fin 2016) :
    min (tbl (ix2 k (1 : Fin 2))).toInt.toNat (64 - 1) = (Cert.Spec.col k).val := by
  have h := Cert.Tri.row_lt_col k.val k.isLt
  rw [tbl_col, toInt_ofNat_small _ (by omega), Int.toNat_natCast, Cert.Spec.col_val]
  exact Nat.min_eq_left (by omega)

/-! ## The gather -/

/-- The reference's gather takes one element per index pair and keeps the batch axis whole. -/
theorem gatherDims_eq :
    gather_S8192x64x64_S2016x2_S8192x2016_0_12_n_n_12_1_819211
      = pairDims 8192 64 64 2016 gather_S8192x64x64_S2016x2_S8192x2016_0_12_n_n_12_1_819211_wf := rfl

/-- The reference's result at `(b, k)` is the inner product of rows `rowOf k` and `colOf k` of batch entry `b`. -/
theorem refOut_apply (x : FVec Ideal S8192x64x32 .f32) (b : Fin 8192) (k : Fin 2016) :
    refOut x (ix2 b k) = Cert.Spec.packedGram x (ix2 b k) := by
  unfold refOut
  rw [gatherDims_eq,
    gather_pair_apply _ _ _ b k (Cert.Spec.row k) (Cert.Spec.col k) (tbl_row_clamped k) (tbl_col_clamped k),
    Cert.Spec.packedGram_apply]
  exact Idealize.ShloMosaic.BatchedDot.dotGeneral_apply
    dot_S8192x64x32_S8192x64x32_S8192x64x64_2_2_1_1_0_0 rfl rfl rfl rfl rfl rfl none .single x x b
    (Cert.Spec.row k) (Cert.Spec.col k)

/-- The reference's result is the packed pairwise inner products. -/
theorem refOut_eq (x : FVec Ideal S8192x64x32 .f32) : refOut x = Cert.Spec.packedGram x := by
  funext y
  obtain ⟨b, k, rfl⟩ : ∃ (b : Fin 8192) (k : Fin 2016), y = ix2 b k := ⟨y 0, y 1, eq_ix2 y⟩
  exact refOut_apply x b k

end Cert.ReferenceIdeal.Stages
-- ==== Proof.lean ====
/-
  Pairwise inner products of 64 feature rows, packed: the kernel against its reference, over the extended reals.

  For `x : [8192, 64, 32]` both programs compute, for every batch entry `b` and every pair `i < j < 64`, the inner product
  `∑ e < 32, x (b, i, e) * x (b, j, e)`, and lay the 2016 pairs out in row-major order of `(i, j)` (`Cert.Tri`, `Cert.Spec`).

  The kernel works on the array flattened to `[8192, 2048]`, 512 rows per grid point in two trips of 256: it forms each
  row's 64 × 64 Gram matrix and stores the tails `g (r, i, i+1 ..)` of rows `i = 0 .. 62` end to end; its rounding of the
  operands to bf16 is the identity at the extended reals (`KernelPay`, `KernelTrip`, `KernelValue`). The reference forms the
  Gram matrices by one batched product and gathers the pairs through an index table it computes first: the positions of
  the non-zero entries of the strictly upper triangular 0/1 mask, found by prefix sums, a count per prefix value and a
  second prefix sum, then split into row and column by division by 64 (`RefStages`, `RefRun`, `LibNonzero`, `RefTable`,
  `RefValue`). The two enumerations of the pairs are the same (`Tri`), so the two results are one function of `x`; no law of
  arithmetic beyond reading both sums in the same order is used, and the inputs' finiteness is not needed.

  The three frames are the generated frame of the kernel at both instances and the reference's run with its result
  dropped; the idealization rewrote nothing, so `preserves` is `True`.
-/
import proofs.«137568_j11974368821316_2_alg».proof.Defs
import proofs.«137568_j11974368821316_2_alg».proof.Proof.Gen.Kernel
import proofs.«137568_j11974368821316_2_alg».proof.Proof.Gen.Kernel.Frame
import proofs.«137568_j11974368821316_2_alg».proof.Proof.Gen.KernelIdeal
import proofs.«137568_j11974368821316_2_alg».proof.Proof.Gen.KernelIdeal.Frame
import proofs.«137568_j11974368821316_2_alg».proof.Proof.Gen.KernelIdeal.Value
import proofs.«137568_j11974368821316_2_alg».proof.Proof.Gen.ReferenceIdeal
import proofs.«137568_j11974368821316_2_alg».proof.Proof.Gen.Pre_finite_inputs
import proofs.«137568_j11974368821316_2_alg».proof.Proof.KernelValue
import proofs.«137568_j11974368821316_2_alg».proof.Proof.RefRun
import proofs.«137568_j11974368821316_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument as it found it. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- From memories agreeing on `x`, the kernel's result array ends at the packed pairwise inner products of `x`
    (`HandValue.run`), and the reference's at its gather of the Gram matrices (`HandRun.run`), which is the same function
    of `x` (`refOut_eq`). -/
theorem algebraic : Cert.algebraic_KernelIdeal_ReferenceIdeal := by
  intro m ρ m' ρ' _ hagree
  refine ⟨fun c => Cert.Spec.packedGram (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [Cert.ReferenceIdeal.Stages.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
